-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S4096x1024 .f32) (main_arg2 : FVec F S4096 .f32) (main_arg3 : FVec F S1024x4096 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S8192x1024 : Shape := ⟨2, ![8192, 1024]⟩
abbrev S_ : Shape := ⟨0, ![]⟩
abbrev S1x1 : Shape := ⟨2, ![1, 1]⟩
abbrev S4096x1 : Shape := ⟨2, ![4096, 1]⟩
abbrev S1x4096 : Shape := ⟨2, ![1, 4096]⟩
abbrev S8192x4096 : Shape := ⟨2, ![8192, 4096]⟩
abbrev S16x8x128 : Shape := ⟨3, ![16, 8, 128]⟩
abbrev S512x1024 : Shape := ⟨2, ![512, 1024]⟩
abbrev S512x4096 : Shape := ⟨2, ![512, 4096]⟩
abbrev S1x8x128 : Shape := ⟨3, ![1, 8, 128]⟩
abbrev S1x512x4096 : Shape := ⟨3, ![1, 512, 4096]⟩
abbrev S1 : Shape := ⟨1, ![1]⟩
abbrev S1x1x1 : Shape := ⟨3, ![1, 1, 1]⟩
abbrev S1024x1 : Shape := ⟨2, ![1024, 1]⟩
abbrev S1x1024 : Shape := ⟨2, ![1, 1024]⟩

abbrev nBuf : Space → Nat
  | .hbm => 86
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S1x4096, .f32⟩
  | .hbm, ⟨43, _⟩ => ⟨S1x4096, .f32⟩
  | .hbm, ⟨44, _⟩ => ⟨S8192x4096, .f32⟩
  | .hbm, ⟨45, _⟩ => ⟨S16x8x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x1, .f32⟩
  | .hbm, ⟨55, _⟩ => ⟨S1024x4096, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024x1, .f32⟩
  | .hbm, ⟨65, _⟩ => ⟨S1024x4096, .f32⟩
  | .hbm, ⟨66, _⟩ => ⟨S1024x4096, .f32⟩
  | .hbm, ⟨67, _⟩ => ⟨S1024x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1024x4096, .f32⟩
  | .hbm, ⟨72, _⟩ => ⟨S1024x4096, .f32⟩
  | .hbm, ⟨73, _⟩ => ⟨S_, .f32⟩
  | .hbm, ⟨74, _⟩ => ⟨S1024x4096, .f32⟩
  | .hbm, ⟨75, _⟩ => ⟨S1024x4096, .f32⟩
  | .hbm, ⟨76, _⟩ => ⟨S1024x4096, .bf16⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S1x1024, .f32⟩
  | .hbm, ⟨83, _⟩ => ⟨S1x1024, .f32⟩
  | .hbm, ⟨84, _⟩ => ⟨S8192x1024, .f32⟩
  | .hbm, ⟨85, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S1x1, .f32⟩
  | .local _ .vmem, ⟨4, _⟩ => ⟨S1x4096, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | .local _ .vmem, ⟨8, _⟩ => ⟨S1x8x128, .f32⟩
  | .local _ .vmem, ⟨9, _⟩ => ⟨S1x8x128, .f32⟩
  | .local _ .vmem, ⟨10, _⟩ => ⟨S512x4096, .f32⟩
  | .local _ .vmem, ⟨11, _⟩ => ⟨S512x4096, .f32⟩
  | .local _ .vmem, ⟨12, _⟩ => ⟨S1024x4096, .bf16⟩
  | .local _ .vmem, ⟨13, _⟩ => ⟨S1x1, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_v9 : Ref sig .tc := ⟨.hbm, 20, rfl⟩
abbrev main_cst_5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_cst_7 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_cst_8 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩
abbrev main_cst_11 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_12 : Ref sig .tc := ⟨.hbm, 56, rfl⟩
abbrev main_v32 : Ref sig .tc := ⟨.hbm, 57, rfl⟩
abbrev main_cst_13 : Ref sig .tc := ⟨.hbm, 58, rfl⟩
abbrev main_v33 : Ref sig .tc := ⟨.hbm, 59, rfl⟩
abbrev main_v34 : Ref sig .tc := ⟨.hbm, 60, rfl⟩
abbrev main_cst_14 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_15 : Ref sig .tc := ⟨.hbm, 68, rfl⟩
abbrev main_cst_16 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4x2048x1024_S8192x1024 : S4x2048x1024.ShapeCasts S8192x1024
  reducesTo_S8192x1024_S_d0_1 : S8192x1024.ReducesTo [0, 1] S_
  h_S_ : 0 < S_.numel
  shapeCasts_S_S1x1 : S_.ShapeCasts S1x1
  reducesTo_S4096x1024_S4096_d1 : S4096x1024.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S4096x1024 : S_.BroadcastsInDim S4096x1024 (![] : Fin 0 → Fin S4096x1024.rank)
  bitsLt_bf16_f32 : FTy.bits .bf16 < FTy.bits .f32
  shapeCasts_S4096_S1x4096 : S4096.ShapeCasts S1x4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  reducesTo_S16x8x128_S_d0_1_2 : S16x8x128.ReducesTo [0, 1, 2] S_
  reducesTo_S1024x4096_S1024_d1 : S1024x4096.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  shapeCasts_S1024_S1x1024 : S1024.ShapeCasts S1x1024
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S4096x1024_S512x4096_1_1_0_0_n_n_wf : DotDims.WF S512x1024 S4096x1024 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S16x8x128.size a
  hwx0_6 : ∀ i : grid0.Coords, EltTy.bits .f32 = 32 ∨ (Rect.block (s := S16x8x128) S1x8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S512x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25_0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S4096x1 : Shape := ⟨2, ![4096, 1]⟩
abbrev S4x2048x4096 : Shape := ⟨3, ![4, 2048, 4096]⟩
abbrev S1x1x4096 : Shape := ⟨3, ![1, 1, 4096]⟩
abbrev S1024x1 : Shape := ⟨2, ![1024, 1]⟩
abbrev S1x1x1024 : Shape := ⟨3, ![1, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4x2048x4096, .f32⟩
  | .hbm, ⟨60, _⟩ => ⟨S1x1x4096, .f32⟩
  | .hbm, ⟨61, _⟩ => ⟨S4x2048x4096, .f32⟩
  | .hbm, ⟨62, _⟩ => ⟨S4x2048x4096, .f32⟩
  | .hbm, ⟨63, _⟩ => ⟨S_, .f32⟩
  | .hbm, ⟨64, _⟩ => ⟨S4x2048x4096, .f32⟩
  | .hbm, ⟨65, _⟩ => ⟨S4x2048x4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4x2048x4096, .f32⟩
  | .hbm, ⟨73, _⟩ => ⟨S4x2048x4096, .f32⟩
  | .hbm, ⟨74, _⟩ => ⟨S4x2048x4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4x2048x4096, .f32⟩
  | .hbm, ⟨79, _⟩ => ⟨S4x2048x4096, .f32⟩
  | .hbm, ⟨80, _⟩ => ⟨S_, .f32⟩
  | .hbm, ⟨81, _⟩ => ⟨S4x2048x4096, .f32⟩
  | .hbm, ⟨82, _⟩ => ⟨S4x2048x4096, .f32⟩
  | .hbm, ⟨83, _⟩ => ⟨S4x2048x4096, .f32⟩
  | .hbm, ⟨84, _⟩ => ⟨S4x2048x4096, .f32⟩
  | .hbm, ⟨85, _⟩ => ⟨S4x2048x4096, .f32⟩
  | .hbm, ⟨86, _⟩ => ⟨S4x2048x4096, .f32⟩
  | .hbm, ⟨87, _⟩ => ⟨S1024x4096, .f32⟩
  | .hbm, ⟨88, _⟩ => ⟨S_, .f32⟩
  | .hbm, ⟨89, _⟩ => ⟨S1024, .f32⟩
  | .hbm, ⟨90, _⟩ => ⟨S1024x1, .f32⟩
  | .hbm, ⟨91, _⟩ => ⟨S_, .f32⟩
  | .hbm, ⟨92, _⟩ => ⟨S1024x1, .f32⟩
  | .hbm, ⟨93, _⟩ => ⟨S1024x1, .f32⟩
  | .hbm, ⟨94, _⟩ => ⟨S_, .f32⟩
  | .hbm, ⟨95, _⟩ => ⟨S1024x1, .f32⟩
  | .hbm, ⟨96, _⟩ => ⟨S1024x1, .f32⟩
  | .hbm, ⟨97, _⟩ => ⟨S1024x4096, .f32⟩
  | .hbm, ⟨98, _⟩ => ⟨S1024x4096, .f32⟩
  | .hbm, ⟨99, _⟩ => ⟨S1024x4096, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1024x4096, .f32⟩
  | .hbm, ⟨104, _⟩ => ⟨S1024x4096, .f32⟩
  | .hbm, ⟨105, _⟩ => ⟨S_, .f32⟩
  | .hbm, ⟨106, _⟩ => ⟨S1024x4096, .f32⟩
  | .hbm, ⟨107, _⟩ => ⟨S1024x4096, .f32⟩
  | .hbm, ⟨108, _⟩ => ⟨S1024x4096, .f32⟩
  | .hbm, ⟨109, _⟩ => ⟨S1024x4096, .f32⟩
  | .hbm, ⟨110, _⟩ => ⟨S1024x4096, .f32⟩
  | .hbm, ⟨111, _⟩ => ⟨S1024x4096, .f32⟩
  | .hbm, ⟨112, _⟩ => ⟨S1024, .f32⟩
  | .hbm, ⟨113, _⟩ => ⟨S1024, .f32⟩
  | .hbm, ⟨114, _⟩ => ⟨S1024, .f32⟩
  | .hbm, ⟨115, _⟩ => ⟨S1024, .f32⟩
  | .hbm, ⟨116, _⟩ => ⟨S1024, .f32⟩
  | .hbm, ⟨117, _⟩ => ⟨S1024, .f32⟩
  | .hbm, ⟨118, _⟩ => ⟨S1024, .f32⟩
  | .hbm, ⟨119, _⟩ => ⟨S1024, .f32⟩
  | .hbm, ⟨120, _⟩ => ⟨S4x2048x1024, .f32⟩
  | .hbm, ⟨121, _⟩ => ⟨S1x1x1024, .f32⟩
  | .hbm, ⟨122, _⟩ => ⟨S4x2048x1024, .f32⟩
  | .hbm, ⟨123, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_cst_6 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call5_cst : Ref sig .tc := ⟨.hbm, 63, rfl⟩
abbrev main_call5_v0 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_12 : Ref sig .tc := ⟨.hbm, 75, rfl⟩
abbrev main_cst_13 : Ref sig .tc := ⟨.hbm, 76, rfl⟩
abbrev main_call7_v0 : Ref sig .tc := ⟨.hbm, 77, rfl⟩
abbrev main_call7_v1 : Ref sig .tc := ⟨.hbm, 78, rfl⟩
abbrev main_call7_v2 : Ref sig .tc := ⟨.hbm, 79, rfl⟩
abbrev main_call7_v3 : Ref sig .tc := ⟨.hbm, 80, rfl⟩
abbrev main_call7_v4 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_14 : Ref sig .tc := ⟨.hbm, 88, rfl⟩
abbrev main_v51 : Ref sig .tc := ⟨.hbm, 89, rfl⟩
abbrev main_v52 : Ref sig .tc := ⟨.hbm, 90, rfl⟩
abbrev main_cst_15 : Ref sig .tc := ⟨.hbm, 91, rfl⟩
abbrev main_v53 : Ref sig .tc := ⟨.hbm, 92, rfl⟩
abbrev main_v54 : Ref sig .tc := ⟨.hbm, 93, rfl⟩
abbrev main_cst_16 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_17 : Ref sig .tc := ⟨.hbm, 100, rfl⟩
abbrev main_cst_18 : Ref sig .tc := ⟨.hbm, 101, rfl⟩
abbrev main_call9_v0 : Ref sig .tc := ⟨.hbm, 102, rfl⟩
abbrev main_call9_v1 : Ref sig .tc := ⟨.hbm, 103, rfl⟩
abbrev main_call9_v2 : Ref sig .tc := ⟨.hbm, 104, rfl⟩
abbrev main_call9_v3 : Ref sig .tc := ⟨.hbm, 105, rfl⟩
abbrev main_call9_v4 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩

abbrev nD : Nat := 1
abbrev τ : Topo := Topo.v7x

variable {F : FTy → Type} [FloatOps F]

class Facts₀ : Prop where
  reducesTo_S4x2048x1024_S_d0_1_2 : S4x2048x1024.ReducesTo [0, 1, 2] S_
  h_S_ : 0 < S_.numel
  bcast_S_S4x2048x1024 : S_.BroadcastsInDim S4x2048x1024 (![] : Fin 0 → Fin S4x2048x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096x1024 : S_.BroadcastsInDim S4096x1024 (![] : Fin 0 → Fin S4096x1024.rank)
  shapeCasts_S4096x1_S4096 : S4096x1.ShapeCasts S4096
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4x2048x4096_S_d0_1_2 : S4x2048x4096.ReducesTo [0, 1, 2] S_
  reducesTo_S1024x4096_S1024_d1 : S1024x4096.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  shapeCasts_S1024x1_S1024 : S1024x1.ShapeCasts S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S4096x1024_S4x2048x4096_2_1_01_0_n_n_wf : DotDims.WF S4x2048x1024 S4096x1024 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.QuantSpec.lean ====
/-
  The mathematics of a fake-quantised linear layer, free of any program.

  A layer takes an activation row `a : K → EReal`, a weight matrix `w : N → K → EReal` and a bias `b : N → EReal`,
  together with `mx`, the largest entry of the whole activation tensor the row belongs to.  The activation scale is
  `max mx ε / 255`, each output channel's weight scale is `max (maxₖ |w n k|) ε / 127`; activations are coded by
  `clip (round (a / s)) 0 255`, weights by `clip (round (w / sₙ)) (-128) 127`, the bias by `round (b / (s sₙ))`.

  Two arrangements of the same layer:
  * `rowK`: the integer codes are multiplied and summed first and the product of the two scales is applied
    once to the sum (and the activation is coded through the reciprocal of its scale);
  * `rowR`: every code is first scaled back, `x + (code · s - x)`, and the scaled values are multiplied and summed.
  On real (finite) data the two agree, by distributivity of the finite sum.
-/
import Idealize.ShloMosaic.PureOps.Ideal
import Idealize.ShloMosaic.PureOps.Ideal.Laws
import Idealize.ShloMosaic.Lib.ValueIdx

noncomputable section

namespace Cert.QMlp

open Idealize.ShloMosaic

/-- A 32-bit float literal's word, read exactly. -/
abbrev lit (w : BitVec 32) : EReal := Ideal.ofBits .f32 w

/-- Round to the nearest integer, ties to the even one; the infinities are fixed. -/
def rne (x : EReal) : EReal := Ideal.liftRound Ideal.roundHalfEven x

/-- An extended real that is a real number. -/
def IsReal (x : EReal) : Prop := ∃ r : ℝ, x = (r : EReal)

section Layer

variable {K N : Type} [Fintype K]

/-- The activation scale of a tensor whose largest entry is `mx`: `max mx ε / 255`. -/
def actScale (mx : EReal) : EReal := Ideal.div (max mx (lit 0x322BCC77#32)) (lit 0x437F0000#32)

/-- One output channel's weight scale: `max (maxₖ |w k|) ε / 127`. -/
def chanScale (w : K → EReal) : EReal :=
  Ideal.div (max (⨆ k, max (w k) (-(w k))) (lit 0x322BCC77#32)) (lit 0x42FE0000#32)

/-- A weight's integer code: `clip (round (w k / scale)) (-128) 127`. -/
def chanCode (w : K → EReal) (k : K) : EReal :=
  min (lit 0x42FE0000#32) (max (lit 0xC3000000#32) (rne (Ideal.div (w k) (chanScale w))))

/-- An activation's integer code from the RECIPROCAL `inv` of its scale: `clip (round (x · inv)) 0 255`. -/
def codeMul (inv x : EReal) : EReal := min (lit 0x437F0000#32) (max (lit 0x00000000#32) (rne (x * inv)))

/-- An activation's integer code from its scale `s`: `clip (round (x / s)) 0 255`. -/
def codeDiv (s x : EReal) : EReal := min (lit 0x437F0000#32) (max (lit 0x00000000#32) (rne (Ideal.div x s)))

/-- The bias rounded onto the grid of the product scale `s`: `round (b / s) · s`. -/
def biasQ (s b : EReal) : EReal := rne (Ideal.div b s) * s

/-- One row of a layer as a matrix unit computes it from READY operands: the codes' products summed, the sum scaled by
    `scale n`, the quantised bias `bq n` added. -/
def callRow (a : K → EReal) (cw : N → K → EReal) (inv : EReal) (scale bq : N → EReal) (n : N) : EReal :=
  (∑ k, codeMul inv (a k) * cw n k) * scale n + bq n

/-- The layer, codes first (see the header). -/
def rowK (mx : EReal) (a : K → EReal) (w : N → K → EReal) (b : N → EReal) (n : N) : EReal :=
  callRow a (fun n k => chanCode (w n) k) (Ideal.div (lit 0x3F800000#32) (actScale mx))
    (fun n => actScale mx * chanScale (w n)) (fun n => biasQ (actScale mx * chanScale (w n)) (b n)) n

/-- The layer, every code scaled back first (see the header). -/
def rowR (mx : EReal) (a : K → EReal) (w : N → K → EReal) (b : N → EReal) (n : N) : EReal :=
  (∑ k, (a k + (codeDiv (actScale mx) (a k) * actScale mx - a k))
        * (w n k + (chanCode (w n) k * chanScale (w n) - w n k)))
    + (b n + (biasQ (actScale mx * chanScale (w n)) (b n) - b n))

end Layer

section Net

variable {R D F E : Type} [Fintype R] [Fintype D] [Fintype F]

/-- The hidden row: the first layer followed by `max · 0`. -/
def hidK (mx : EReal) (x : D → EReal) (w1 : F → D → EReal) (b1 : F → EReal) (f : F) : EReal :=
  max (rowK mx x w1 b1 f) (lit 0x00000000#32)

def hidR (mx : EReal) (x : D → EReal) (w1 : F → D → EReal) (b1 : F → EReal) (f : F) : EReal :=
  max (rowR mx x w1 b1 f) (lit 0x00000000#32)

/-- The largest entry of the input tensor, rows `R`, columns `D`. -/
def inMax (x : R → D → EReal) : EReal := ⨆ r, ⨆ d, x r d

/-- The largest entry of the hidden tensor. -/
def hidMaxK (x : R → D → EReal) (w1 : F → D → EReal) (b1 : F → EReal) : EReal :=
  ⨆ r, ⨆ f, hidK (inMax x) (x r) w1 b1 f

def hidMaxR (x : R → D → EReal) (w1 : F → D → EReal) (b1 : F → EReal) : EReal :=
  ⨆ r, ⨆ f, hidR (inMax x) (x r) w1 b1 f

/-- The two-layer network at row `r`, output column `e`, codes first. -/
def outK (x : R → D → EReal) (w1 : F → D → EReal) (b1 : F → EReal) (w2 : E → F → EReal) (b2 : E → EReal)
    (r : R) (e : E) : EReal :=
  rowK (hidMaxK x w1 b1) (hidK (inMax x) (x r) w1 b1) w2 b2 e

/-- The two-layer network at row `r`, output column `e`, every code scaled back first. -/
def outR (x : R → D → EReal) (w1 : F → D → EReal) (b1 : F → EReal) (w2 : E → F → EReal) (b2 : E → EReal)
    (r : R) (e : E) : EReal :=
  rowR (hidMaxR x w1 b1) (hidR (inMax x) (x r) w1 b1) w2 b2 e

end Net

section Arrays

open ValueIdx

/-- A rank-3 array as rows (the two leading coordinates) and columns. -/
def rows3 {n0 n1 n2 : Nat} (X : (⟨3, ![n0, n1, n2]⟩ : Shape).Idx → EReal) : Fin n0 × Fin n1 → Fin n2 → EReal :=
  fun p d => X (ix3 p.1 p.2 d)

/-- A rank-2 array by its two coordinates. -/
def mat2 {n0 n1 : Nat} (W : (⟨2, ![n0, n1]⟩ : Shape).Idx → EReal) : Fin n0 → Fin n1 → EReal :=
  fun a b => W (ix2 a b)

/-- A rank-1 array by its coordinate. -/
def vec1 {n : Nat} (B : (⟨1, ![n]⟩ : Shape).Idx → EReal) : Fin n → EReal := fun a => B (ix1 a)

end Arrays

end Cert.QMlp

end
-- ==== Proof.QuantLib.lean ====
/-
  Small facts shared by the modules that read maxima: the literal `-∞` is the bottom element, the literal `0.0` is zero,
  and a fold of `max` from the bottom element over a finite index set is the supremum over it.
-/
import proofs.«105257_j19267223290743_2_alg».proof.Proof.QuantSpec

noncomputable section

namespace Cert.QMlp

open Idealize.ShloMosaic

/-- The word `0xFF800000` (minus infinity) is the least extended real. -/
theorem lit_neg_inf : lit 0xFF800000#32 = ⊥ := by
  simp [lit, Ideal.ofBits, Ideal.ieee]

/-- The word `0x00000000` is zero. -/
theorem lit_zero : lit 0x00000000#32 = 0 := Ideal.ofBits_zero_f32

/-- A fold of `max` from `⊥` over a finite set is the supremum over the set. -/
theorem fold_max_bot_eq_iSup {ι : Type} (s : Finset ι) (f : ι → EReal) :
    s.fold max ⊥ f = ⨆ i ∈ s, f i := by
  apply le_antisymm
  · rw [Finset.fold_max_le]
    exact ⟨bot_le, fun i hi => le_iSup₂ (f := fun i (_ : i ∈ s) => f i) i hi⟩
  · refine iSup₂_le fun i hi => ?_
    rw [Finset.le_fold_max]
    exact Or.inr ⟨i, hi, le_rfl⟩

/-- Over the whole index type. -/
theorem fold_max_univ_eq_iSup {ι : Type} [Fintype ι] (f : ι → EReal) :
    (Finset.univ : Finset ι).fold max ⊥ f = ⨆ i, f i := by
  rw [fold_max_bot_eq_iSup]; simp

/-- Over a subset that is in fact everything. -/
theorem fold_max_filter_eq_iSup {ι : Type} [Fintype ι] (p : ι → Prop) [DecidablePred p] (hp : ∀ i, p i)
    (f : ι → EReal) : (Finset.univ.filter p).fold max ⊥ f = ⨆ i, f i := by
  rw [Finset.filter_true_of_mem fun i _ => hp i, fold_max_univ_eq_iSup]

end Cert.QMlp

end
-- ==== Proof.QuantMath.lean ====
/-
  The two arrangements of the fake-quantised two-layer network agree on real (finite) data.

  Every quantity of a layer is a real number once the data are: the activation scale `max mx ε / 255` is a positive
  real as soon as the tensor maximum `mx` is not `+∞`, a channel's weight scale `max (maxₖ |w k|) ε / 127` is a
  positive real because a supremum of finitely many reals is never `+∞`, rounding and clipping keep reals real, and
  division by a nonzero real is multiplication by its reciprocal, so coding through the reciprocal of the scale and
  coding through the scale give the same code.  With all atoms real, `x + (q - x) = q`, and

      Σₖ (caₖ · s) · (cwₖ · t)  =  (Σₖ caₖ · cwₖ) · (s · t)

  by distributivity of the finite sum: the layer that sums the integer codes first and scales once (`rowK`) equals
  the layer that scales every code back first (`rowR`).  The hidden rows are then real, so the hidden tensor's
  maximum is not `+∞` and is the same in both arrangements, and the second layer agrees for the same reason.
-/
import proofs.«105257_j19267223290743_2_alg».proof.Proof.QuantSpec
import proofs.«105257_j19267223290743_2_alg».proof.Proof.QuantLib

noncomputable section

open Idealize.ShloMosaic
open Cert.QMlp

namespace Cert.QMlp.Math

/-! ### The literal words -/

/-- The word `0x322BCC77` is a positive real. -/
theorem lit_eps : ∃ e : ℝ, 0 < e ∧ lit 0x322BCC77#32 = (e : EReal) := by
  refine ⟨_, ?_, by simp [lit, Ideal.ofBits, Ideal.ieee, -EReal.coe_mul]; rfl⟩
  positivity

theorem lit_255 : lit 0x437F0000#32 = ((255 : ℝ) : EReal) := by
  simp [lit, Ideal.ofBits, Ideal.ieee, -EReal.coe_mul]; norm_num

theorem lit_127 : lit 0x42FE0000#32 = ((127 : ℝ) : EReal) := by
  simp [lit, Ideal.ofBits, Ideal.ieee, -EReal.coe_mul]; norm_num

theorem lit_m128 : lit 0xC3000000#32 = ((-128 : ℝ) : EReal) := by
  simp [lit, Ideal.ofBits, Ideal.ieee, -EReal.coe_mul]; norm_num

theorem lit_one : lit 0x3F800000#32 = ((1 : ℝ) : EReal) := by
  simp [lit, Ideal.ofBits, Ideal.ieee, -EReal.coe_mul]; norm_num

/-! ### The reals inside the extended reals -/

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- The coercion commutes with a finite sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem real_coe (a : ℝ) : IsReal (a : EReal) := ⟨a, rfl⟩

theorem real_ne_top {x : EReal} (h : IsReal x) : x ≠ ⊤ := by
  obtain ⟨a, rfl⟩ := h; exact EReal.coe_ne_top a

theorem real_add {x y : EReal} (hx : IsReal x) (hy : IsReal y) : IsReal (x + y) := by
  obtain ⟨a, rfl⟩ := hx; obtain ⟨b, rfl⟩ := hy; exact ⟨a + b, (EReal.coe_add a b).symm⟩

theorem real_mul {x y : EReal} (hx : IsReal x) (hy : IsReal y) : IsReal (x * y) := by
  obtain ⟨a, rfl⟩ := hx; obtain ⟨b, rfl⟩ := hy; exact ⟨a * b, (EReal.coe_mul a b).symm⟩

theorem real_max {x y : EReal} (hx : IsReal x) (hy : IsReal y) : IsReal (max x y) := by
  obtain ⟨a, rfl⟩ := hx; obtain ⟨b, rfl⟩ := hy; exact ⟨max a b, coe_max a b⟩

theorem real_min {x y : EReal} (hx : IsReal x) (hy : IsReal y) : IsReal (min x y) := by
  obtain ⟨a, rfl⟩ := hx; obtain ⟨b, rfl⟩ := hy; exact ⟨min a b, coe_min a b⟩

/-- Rounding a real gives a real (an integer). -/
theorem real_rne (a : ℝ) : IsReal (rne (a : EReal)) := ⟨(Ideal.roundHalfEven a : ℝ), rfl⟩

theorem real_sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- Division of reals by a nonzero real is the real quotient. -/
theorem div_real (a b : ℝ) (hb : b ≠ 0) : Ideal.div (a : EReal) (b : EReal) = ((a / b : ℝ) : EReal) := by
  rw [Ideal.div_coe hb, ← EReal.coe_mul, mul_one_div]

/-- A supremum of finitely many values none of which is `+∞` is not `+∞`. -/
theorem iSup_ne_top_of_forall {ι : Type} [Fintype ι] (f : ι → EReal) (h : ∀ i, f i ≠ ⊤) : (⨆ i, f i) ≠ ⊤ := by
  rw [← Finset.sup_univ_eq_iSup]
  exact ne_of_lt ((Finset.sup_lt_iff bot_lt_top).2 fun i _ => lt_top_iff_ne_top.2 (h i))

/-- The larger of a value below `+∞` and a positive real is a positive real. -/
theorem real_max_pos (m : EReal) (hm : m ≠ ⊤) (e : ℝ) (he : 0 < e) :
    ∃ s : ℝ, 0 < s ∧ max m (e : EReal) = (s : EReal) := by
  induction m using EReal.rec with
  | bot => exact ⟨e, he, max_eq_right bot_le⟩
  | coe a => exact ⟨max a e, lt_max_of_lt_right he, coe_max a e⟩
  | top => exact absurd rfl hm

/-! ### The scales and the codes -/

/-- The activation scale of a tensor whose maximum is not `+∞` is a positive real. -/
theorem real_actScale (mx : EReal) (hmx : mx ≠ ⊤) : ∃ s : ℝ, 0 < s ∧ actScale mx = (s : EReal) := by
  obtain ⟨e, he, hE⟩ := lit_eps
  obtain ⟨t, ht, hT⟩ := real_max_pos mx hmx e he
  refine ⟨t / 255, by positivity, ?_⟩
  rw [actScale, hE, hT, lit_255, div_real _ _ (by norm_num)]

/-- The weight scale of a channel of real weights is a positive real. -/
theorem real_chanScale {K : Type} [Fintype K] (w : K → EReal) (hw : ∀ k, IsReal (w k)) :
    ∃ s : ℝ, 0 < s ∧ chanScale w = (s : EReal) := by
  obtain ⟨e, he, hE⟩ := lit_eps
  have hne : (⨆ k, max (w k) (-(w k))) ≠ ⊤ := iSup_ne_top_of_forall _ fun k => by
    obtain ⟨a, ha⟩ := hw k
    rw [ha, ← EReal.coe_neg, coe_max]; exact EReal.coe_ne_top _
  obtain ⟨t, ht, hT⟩ := real_max_pos _ hne e he
  refine ⟨t / 127, by positivity, ?_⟩
  rw [chanScale, hE, hT, lit_127, div_real _ _ (by norm_num)]

theorem real_chanCode {K : Type} [Fintype K] (w : K → EReal) (hw : ∀ k, IsReal (w k)) (k : K) :
    IsReal (chanCode w k) := by
  obtain ⟨s, hs, hS⟩ := real_chanScale w hw
  obtain ⟨a, ha⟩ := hw k
  rw [chanCode, hS, ha, div_real _ _ hs.ne', lit_127, lit_m128]
  exact real_min (real_coe _) (real_max (real_coe _) (real_rne _))

theorem real_codeDiv (s x : ℝ) (hs : s ≠ 0) : IsReal (codeDiv (s : EReal) (x : EReal)) := by
  rw [codeDiv, div_real _ _ hs, lit_255, lit_zero]
  exact real_min (real_coe _) (real_max ⟨0, EReal.coe_zero.symm⟩ (real_rne _))

/-- Coding through the reciprocal of a nonzero real scale is coding through the scale. -/
theorem codeMul_eq_codeDiv (s x : ℝ) (hs : s ≠ 0) :
    codeMul (Ideal.div (lit 0x3F800000#32) (s : EReal)) (x : EReal) = codeDiv (s : EReal) (x : EReal) := by
  rw [codeMul, codeDiv, lit_one, div_real _ _ hs, div_real _ _ hs, ← EReal.coe_mul, mul_one_div]

theorem real_biasQ (s b : ℝ) (hs : s ≠ 0) : IsReal (biasQ (s : EReal) (b : EReal)) := by
  rw [biasQ, div_real _ _ hs]; exact real_mul (real_rne _) (real_coe s)

/-! ### One layer -/

/-- The distributive law behind the two arrangements, with every atom a real. -/
theorem row_core {K : Type} [Fintype K] (a w ca cw : K → ℝ) (s t b bq : ℝ) :
    (∑ k, (ca k : EReal) * (cw k : EReal)) * ((s : EReal) * (t : EReal)) + (bq : EReal)
      = (∑ k, ((a k : EReal) + ((ca k : EReal) * (s : EReal) - (a k : EReal)))
            * ((w k : EReal) + ((cw k : EReal) * (t : EReal) - (w k : EReal))))
        + ((b : EReal) + ((bq : EReal) - (b : EReal))) := by
  simp only [← EReal.coe_mul, ← EReal.coe_sub, ← EReal.coe_add, coe_sum]
  rw [EReal.coe_eq_coe_iff, Finset.sum_mul]
  congr 1
  · exact Finset.sum_congr rfl fun k _ => by ring
  · ring

/-- On real data with a tensor maximum below `+∞` the two arrangements of a layer agree, and the result is real. -/
theorem row_both {K N : Type} [Fintype K] (mx : EReal) (hmx : mx ≠ ⊤) (a : K → EReal) (w : N → K → EReal)
    (b : N → EReal) (ha : ∀ k, IsReal (a k)) (hw : ∀ n k, IsReal (w n k)) (hb : ∀ n, IsReal (b n)) (n : N) :
    rowK mx a w b n = rowR mx a w b n ∧ IsReal (rowK mx a w b n) := by
  obtain ⟨s, hs, hS⟩ := real_actScale mx hmx
  obtain ⟨t, ht, hT⟩ := real_chanScale (w n) (hw n)
  choose a' ha' using ha
  choose w' hw' using hw n
  obtain ⟨b', hb'⟩ := hb n
  choose cw hcw using real_chanCode (w n) (hw n)
  choose ca hca using fun k => real_codeDiv s (a' k) hs.ne'
  obtain ⟨bq, hbq⟩ := real_biasQ (s * t) b' (mul_pos hs ht).ne'
  have hmul : ∀ k, codeMul (Ideal.div (lit 0x3F800000#32) (s : EReal)) (a' k : EReal) = (ca k : EReal) :=
    fun k => (codeMul_eq_codeDiv s (a' k) hs.ne').trans (hca k)
  rw [EReal.coe_mul] at hbq
  unfold rowK rowR callRow
  beta_reduce
  rw [hS, hT, hb', hbq]
  simp only [ha', hw', hcw, hca, hmul]
  exact ⟨row_core a' w' ca cw s t b' bq,
    real_add (real_mul (real_sum _ _ fun k => real_mul (real_coe _) (real_coe _))
      (real_mul (real_coe s) (real_coe t))) (real_coe bq)⟩

theorem row_eq {K N : Type} [Fintype K] (mx : EReal) (hmx : mx ≠ ⊤) (a : K → EReal) (w : N → K → EReal)
    (b : N → EReal) (ha : ∀ k, IsReal (a k)) (hw : ∀ n k, IsReal (w n k)) (hb : ∀ n, IsReal (b n)) (n : N) :
    rowK mx a w b n = rowR mx a w b n := (row_both mx hmx a w b ha hw hb n).1

theorem rowK_real {K N : Type} [Fintype K] (mx : EReal) (hmx : mx ≠ ⊤) (a : K → EReal) (w : N → K → EReal)
    (b : N → EReal) (ha : ∀ k, IsReal (a k)) (hw : ∀ n k, IsReal (w n k)) (hb : ∀ n, IsReal (b n)) (n : N) :
    IsReal (rowK mx a w b n) := (row_both mx hmx a w b ha hw hb n).2

/-! ### The network -/

/-- The hidden row agrees in the two arrangements and is real. -/
theorem hid_both {D F : Type} [Fintype D] (mx : EReal) (hmx : mx ≠ ⊤) (x : D → EReal) (w1 : F → D → EReal)
    (b1 : F → EReal) (hx : ∀ d, IsReal (x d)) (hw1 : ∀ f d, IsReal (w1 f d)) (hb1 : ∀ f, IsReal (b1 f)) (f : F) :
    hidK mx x w1 b1 f = hidR mx x w1 b1 f ∧ IsReal (hidK mx x w1 b1 f) := by
  obtain ⟨h1, h2⟩ := row_both mx hmx x w1 b1 hx hw1 hb1 f
  refine ⟨by rw [hidK, hidR, h1], ?_⟩
  rw [hidK, lit_zero]; exact real_max h2 ⟨0, EReal.coe_zero.symm⟩

theorem out_eq {R D F E : Type} [Fintype R] [Fintype D] [Fintype F]
    (x : R → D → EReal) (w1 : F → D → EReal) (b1 : F → EReal) (w2 : E → F → EReal) (b2 : E → EReal)
    (hx : ∀ r d, IsReal (x r d)) (hw1 : ∀ f d, IsReal (w1 f d)) (hb1 : ∀ f, IsReal (b1 f))
    (hw2 : ∀ e f, IsReal (w2 e f)) (hb2 : ∀ e, IsReal (b2 e)) (r : R) (e : E) :
    outK x w1 b1 w2 b2 r e = outR x w1 b1 w2 b2 r e := by
  have hin : inMax x ≠ ⊤ :=
    iSup_ne_top_of_forall _ fun r => iSup_ne_top_of_forall _ fun d => real_ne_top (hx r d)
  have hh : ∀ r f, hidK (inMax x) (x r) w1 b1 f = hidR (inMax x) (x r) w1 b1 f
      ∧ IsReal (hidK (inMax x) (x r) w1 b1 f) :=
    fun r f => hid_both (inMax x) hin (x r) w1 b1 (hx r) hw1 hb1 f
  have hmaxeq : hidMaxK x w1 b1 = hidMaxR x w1 b1 := by
    unfold hidMaxK hidMaxR
    exact iSup_congr fun r => iSup_congr fun f => (hh r f).1
  have hmax : hidMaxK x w1 b1 ≠ ⊤ :=
    iSup_ne_top_of_forall _ fun r => iSup_ne_top_of_forall _ fun f => real_ne_top (hh r f).2
  have hfun : hidK (inMax x) (x r) w1 b1 = hidR (inMax x) (x r) w1 b1 := funext fun f => (hh r f).1
  unfold outK outR
  rw [← hmaxeq, ← hfun]
  exact row_eq (hidMaxK x w1 b1) hmax _ w2 b2 (fun f => (hh r f).2) hw2 hb2 e

end Cert.QMlp.Math

end
-- ==== Proof.FiniteInputs.lean ====
/-
  The precondition of the certificate says that a printed predicate of the five argument arrays is all ones: the
  conjunction of five "every entry satisfies |x| < +∞" tests, each test a reduction by "and" of the comparisons
  |x| < +∞ over a whole array. This module reads that back: under the precondition every entry of every argument
  array is a real number (an extended real other than +∞ and -∞).

  The steps: a conjunction of one-bit words is 1 exactly when both words are 1; a reduction by "and" over every axis
  that came out 1 met a 1 at every index; the word 0x7F800000 denotes +∞; and an extended real x with
  max x (-x) < +∞ is neither +∞ nor -∞, hence the image of a real number.
-/
import proofs.«105257_j19267223290743_2_alg».proof.Defs
import proofs.«105257_j19267223290743_2_alg».proof.Proof.Gen.Pre_finite_inputs
import proofs.«105257_j19267223290743_2_alg».proof.Proof.QuantSpec
import Idealize.ShloMosaic.Lib.ReduceAll
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Cert.QMlp

namespace Cert.Fin
open Cert.KernelIdeal

/-- The word `0x7F800000` denotes plus infinity. -/
theorem lit_pos_inf : Ideal.ofBits .f32 0x7F800000#32 = (⊤ : EReal) := by
  simp [Ideal.ofBits, Ideal.ieee]

/-- An extended real whose absolute value `max x (-x)` is below `+∞` is a real number. -/
theorem isReal_of_abs_lt_top (x : EReal) (h : max x (-x) < (⊤ : EReal)) : IsReal x := by
  induction x using EReal.rec with
  | bot => simp at h
  | top => simp at h
  | coe r => exact ⟨r, rfl⟩

/-- The comparison `|x| < +∞`, as the predicate prints it, coming out 1 makes `x` a real number. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : IsReal x := by
  apply isReal_of_abs_lt_top
  have h' : Ideal.cmp .olt (max x (-x)) (Ideal.ofBits .f32 0x7F800000#32) = 1#1 := h
  rw [lit_pos_inf] at h'
  unfold Ideal.cmp at h'
  by_contra hn
  simp [hn] at h'

/-- The result of a reduction over every axis has one index. -/
instance subsingleton_scalar_idx : Subsingleton Cert.Pre_finite_inputs.S_.Idx :=
  ⟨fun a b => funext fun d => d.elim0⟩

/-- One test of the predicate, over any shape: the reduction by "and" of the comparisons `|x| < +∞` came out 1, so
    every entry of `x` is a real number. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf (F := Ideal) x)
          (broadcastInDim s ![] bc (constant (F := Ideal) Cert.Pre_finite_inputs.S_ .f32 0x7F800000#32)))
        (constantI Cert.Pre_finite_inputs.S_ 1 1#1) hr hu j = 1#1) (i : s.Idx) : IsReal (x i) :=
  isReal_of_cmp (x i) (Host.reduce_andi_all _ _ hr hu j e i)

theorem real_of_pre [hP : Cert.Pre_finite_inputs.Facts] [hK : Cert.KernelIdeal.Facts]
    (m : (ℓ : Loc nD τ sig) → Buf (Elt Ideal) ℓ) (h : Cert.Pre_KernelIdeal m) (c : Dev nD) :
    (∀ i, IsReal ((m ((c.tc : Thread nD τ).loc main_arg0) : S4x2048x1024.Idx → EReal) i))
    ∧ (∀ i, IsReal ((m ((c.tc : Thread nD τ).loc main_arg1) : S4096x1024.Idx → EReal) i))
    ∧ (∀ i, IsReal ((m ((c.tc : Thread nD τ).loc main_arg2) : S4096.Idx → EReal) i))
    ∧ (∀ i, IsReal ((m ((c.tc : Thread nD τ).loc main_arg3) : S1024x4096.Idx → EReal) i))
    ∧ (∀ i, IsReal ((m ((c.tc : Thread nD τ).loc main_arg4) : S1024.Idx → EReal) i)) := by
  have e := congrFun (h c) ValueIdx.ix0
  dsimp only [Cert.Pre_finite_inputs.fn, Cert.Pre_finite_inputs.fn_part1] at e
  simp only [andi, IntOp.andi_eq_one] at e
  obtain ⟨⟨⟨⟨e0, e1⟩, e2⟩, e3⟩, e4⟩ := e
  exact ⟨all_real _ _ _ _ _ e0, all_real _ _ _ _ _ e1, all_real _ _ _ _ _ e2, all_real _ _ _ _ _ e3,
    all_real _ _ _ _ _ e4⟩

end Cert.Fin

end
-- ==== Proof.KernelRun.lean ====
/-
  The idealised kernel's run with its result NAMED: every weakly fair execution of the program from a memory `m`
  terminates without a fault, leaves the result array at the contents the last host operation (a reshape of the
  second call's output) computes from the contents at the previous boundary, and leaves the five argument arrays as
  launched.  The program is a chain of host stretches and two kernel regions; the contents at every boundary are the
  generated fold `W0 … W17`, and the final state is read against the last boundary's contents.
-/
import proofs.«105257_j19267223290743_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_value : θ_run defs (onTc (τ := τ) (main (F := F))) ⟨m, fun _ => 0, ρ⟩ (fun r => ∀ c : Dev nD,
      r.2.mem ((c.tc : Thread nD τ).loc main_v51) = W17 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v51 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c)⟩)

end Cert.KernelIdeal.KRun

end
-- ==== Proof.KernelCall0Hid.lean ====
/-
  The first call's hidden output array, entry by entry.

  The call runs over a grid of 16 points.  Point `t` reads rows `512 t … 512 t + 511` of the `[8192, 1024]` activation,
  the whole `[4096, 1024]` matrix of weight codes, the `[1, 1]` reciprocal of the activation scale and the two
  `[1, 4096]` rows (the product scales and the quantised biases), and writes rows `512 t … 512 t + 511` of the
  `[8192, 4096]` hidden output.  At row `p`, column `q` of its block the body stores

      max ((∑ₖ clip (round (x p k · inv)) 0 255 · cw q k) · scale q + bq q) 0,

  a matrix product onto a zero accumulator (the sum over the 1024 shared coordinates), one multiplication and one
  addition by rows broadcast over the 512 rows, and the maximum with zero.  Every row `r` of the output lies in exactly
  the block of point `r / 512`, so after the call the array holds, at `(r, f)`, the hidden row of row `r` of the
  activation — for any contents of the buffers at the call's entry.
-/
import proofs.«105257_j19267223290743_2_alg».proof.Proof.Gen.KernelIdeal.Frame
import proofs.«105257_j19267223290743_2_alg».proof.Proof.QuantSpec
import proofs.«105257_j19267223290743_2_alg».proof.Proof.QuantLib
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.QMlp

namespace Cert.KernelIdeal.Call0H
open Cert.KernelIdeal Cert.KernelIdeal.Gen

/-- `callRow` respects equality of each operand. -/
theorem callRow_congr {K N : Type} [Fintype K] {a a' : K → EReal} {cw cw' : N → K → EReal} {inv inv' : EReal}
    {scale scale' bq bq' : N → EReal} (ha : a = a') (hc : cw = cw') (hi : inv = inv') (hs : scale = scale')
    (hb : bq = bq') (n : N) : callRow a cw inv scale bq n = callRow a' cw' inv' scale' bq' n := by
  subst ha hc hi hs hb; rfl

/-! ## The body's arithmetic at one output coordinate -/

/-- Coordinate 0 of the matrix product's left operand index is the output's row. -/
theorem lhs0 (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
/-- Coordinate 1 of the left operand index is the contraction coordinate. -/
theorem lhs1 (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
/-- Coordinate 0 of the right operand index is the output's column. -/
theorem rhs0 (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
/-- Coordinate 1 of the right operand index is the contraction coordinate. -/
theorem rhs1 (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- The product of two matrices into a zero accumulator, read at (p, q): the sum over k of a (p, k) · b (q, k). -/
theorem matmul_at (a : FVec Ideal S512x1024 .bf16) (b : FVec Ideal S4096x1024 .bf16) (p : Fin 512) (q : Fin 4096) :
    matmul dot_S512x1024_S4096x1024_S512x4096_1_1_0_0_n_n none a b (constant (F := Ideal) S512x4096 .f32 0x00000000#32) (ix2 p q)
      = ∑ k : Fin 1024, a (ix2 p k) * b (ix2 q k) := by
  refine (Ideal.matmul_constant_zero_apply dot_S512x1024_S4096x1024_S512x4096_1_1_0_0_n_n none a b (ix2 p q)).trans ?_
  rw [← Equiv.sum_comp (contrEquiv1 dot_S512x1024_S4096x1024_S512x4096_1_1_0_0_n_n 1024 rfl rfl).symm]
  refine Finset.sum_congr rfl fun k _ => ?_
  have hk := contrEquiv1_symm_val dot_S512x1024_S4096x1024_S512x4096_1_1_0_0_n_n 1024 rfl rfl k
  have el : dot_S512x1024_S4096x1024_S512x4096_1_1_0_0_n_n.lhsIdx (ix2 p q) ((contrEquiv1 dot_S512x1024_S4096x1024_S512x4096_1_1_0_0_n_n 1024 rfl rfl).symm k) = ix2 p k := funext fun a => Fin.ext (by
    match a with
    | ⟨0, _⟩ => exact lhs0 _ _
    | ⟨1, _⟩ => exact (lhs1 _ _).trans hk)
  have er : dot_S512x1024_S4096x1024_S512x4096_1_1_0_0_n_n.rhsIdx (ix2 p q) ((contrEquiv1 dot_S512x1024_S4096x1024_S512x4096_1_1_0_0_n_n 1024 rfl rfl).symm k) = ix2 q k := funext fun a => Fin.ext (by
    match a with
    | ⟨0, _⟩ => exact rhs0 _ _
    | ⟨1, _⟩ => exact (rhs1 _ _).trans hk)
  rw [el, er]

/-- The matrix product scaled per column, a row added, and the maximum with a constant taken, read at (p, q). -/
theorem affine_at (a : FVec Ideal S512x1024 .bf16) (b : FVec Ideal S4096x1024 .bf16) (s c : FVec Ideal S1x4096 .f32) (z : EReal)
    (p : Fin 512) (q : Fin 4096) :
    maximumf (addf (mulf (matmul dot_S512x1024_S4096x1024_S512x4096_1_1_0_0_n_n none a b (constant (F := Ideal) S512x4096 .f32 0x00000000#32))
        (broadcastTo S512x4096 s broadcasts_S1x4096_S512x4096)) (broadcastTo S512x4096 c broadcasts_S1x4096_S512x4096))
      (broadcast S512x4096 z) (ix2 p q)
      = max ((∑ k : Fin 1024, a (ix2 p k) * b (ix2 q k)) * s (ix2 0 q) + c (ix2 0 q)) z := by
  show max (matmul dot_S512x1024_S4096x1024_S512x4096_1_1_0_0_n_n none a b (constant (F := Ideal) S512x4096 .f32 0x00000000#32) (ix2 p q)
      * broadcastTo S512x4096 s broadcasts_S1x4096_S512x4096 (ix2 p q) + broadcastTo S512x4096 c broadcasts_S1x4096_S512x4096 (ix2 p q)) z = _
  rw [matmul_at, broadcastTo_1b_ab_apply, broadcastTo_1b_ab_apply]

/-- The scalar read out of a one-by-one vector is its one entry. -/
theorem extract00 (v0 : Vec Ideal S1x1 .f32) : extractAt ![0, 0] v0 inpos_S1x1_p0_0 = (v0 : S1x1.Idx → EReal) (ix2 0 0) :=
  congrArg v0 (funext fun a => by match a with | ⟨0, _⟩ => rfl | ⟨1, _⟩ => rfl)

/-- The first stored value at (p, q): the codes' products summed, scaled, the bias added, then `max · 0`. -/
theorem pay1_apply (v0 : Vec Ideal S1x1 .f32) (v2 : Vec Ideal S512x1024 .f32) (v12 : Vec Ideal S4096x1024 .bf16)
    (v15 v19 : Vec Ideal S1x4096 .f32) (p : Fin 512) (q : Fin 4096) :
    (k0_pay1 (F := Ideal) v0 v2 v12 v15 v19 : S512x4096.Idx → EReal) (ix2 p q)
      = max (callRow (fun k : Fin 1024 => (v2 : S512x1024.Idx → EReal) (ix2 p k))
              (fun (n : Fin 4096) (k : Fin 1024) => (v12 : S4096x1024.Idx → EReal) (ix2 n k))
              ((v0 : S1x1.Idx → EReal) (ix2 0 0))
              (fun n : Fin 4096 => (v15 : S1x4096.Idx → EReal) (ix2 0 n))
              (fun n : Fin 4096 => (v19 : S1x4096.Idx → EReal) (ix2 0 n)) q) (lit 0x00000000#32) := by
  unfold k0_pay1
  simp only [shapeCast_self]
  rw [extract00 v0]
  refine (affine_at _ _ _ _ _ p q).trans ?_
  rfl

/-! ## The blocks the grid's points read, and the block each of them writes -/

theorem hz : (![0, 0] : Fin 2 → Nat) = fun _ => 0 := funext fun a => by fin_cases a <;> rfl

/-- The printed index maps, decided once over the 16 grid points: point `t` takes block row `t` of the activation
    and of the hidden output, and block (0, 0) of everything else. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `512 t + p` of the array. -/
theorem row_lt (t : Fin cfg0.N) (p : Fin 512) : t.val * 512 + p.val < 8192 := by
  have h1 : t.val < 16 := lt_of_lt_of_eq t.isLt N_0
  have h2 := p.isLt
  omega

section Region
variable (V : (c : Dev nD) → (b : Ref sig .tc) → Buf (Elt Ideal) ((c : Thread nD τ).loc b))

theorem blk0_at (c : Dev nD) (t : Fin cfg0.N) (p : Fin 512) (k : Fin 1024) :
    (iblk0 V c 0 t : Vec Ideal S512x1024 .f32) (ix2 p k)
      = (V c main_v0 : S8192x1024.Idx → EReal) (ix2 ⟨t.val * 512 + p.val, row_lt t p⟩ k) := by
  obtain ⟨e0, e1, -⟩ := idx_facts t
  unfold iblk0
  rw [View.read_apply]
  show V c main_v0 _ = V c main_v0 _
  congr 1
  funext a
  apply Fin.ext
  match a with
  | ⟨0, _⟩ => show win0_0.index t 0 * 512 + 1 * p.val = t.val * 512 + p.val; rw [e0]; omega
  | ⟨1, _⟩ => show win0_0.index t 1 * 1024 + 1 * k.val = k.val; rw [e1]; omega

theorem blk1_at (c : Dev nD) (t : Fin cfg0.N) (n : Fin 4096) (k : Fin 1024) :
    (iblk0 V c 1 t : Vec Ideal S4096x1024 .bf16) (ix2 n k) = (V c main_v17 : S4096x1024.Idx → EReal) (ix2 n k) := by
  obtain ⟨-, -, e0, e1, -⟩ := idx_facts t
  unfold iblk0
  rw [View.read_apply]
  show V c main_v17 _ = V c main_v17 _
  congr 1
  funext a
  apply Fin.ext
  match a with
  | ⟨0, _⟩ => show win0_1.index t 0 * 4096 + 1 * n.val = n.val; rw [e0]; omega
  | ⟨1, _⟩ => show win0_1.index t 1 * 1024 + 1 * k.val = k.val; rw [e1]; omega

theorem blk2_at (c : Dev nD) (t : Fin cfg0.N) :
    (iblk0 V c 2 t : Vec Ideal S1x1 .f32) (ix2 0 0) = (V c main_v5 : S1x1.Idx → EReal) (ix2 0 0) := by
  obtain ⟨-, -, -, -, e0, e1, -⟩ := idx_facts t
  unfold iblk0
  rw [View.read_apply]
  show V c main_v5 _ = V c main_v5 _
  congr 1
  funext a
  apply Fin.ext
  match a with
  | ⟨0, _⟩ => show win0_2.index t 0 * 1 + 1 * 0 = 0; rw [e0]
  | ⟨1, _⟩ => show win0_2.index t 1 * 1 + 1 * 0 = 0; rw [e1]

theorem blk3_at (c : Dev nD) (t : Fin cfg0.N) (n : Fin 4096) :
    (iblk0 V c 3 t : Vec Ideal S1x4096 .f32) (ix2 0 n) = (V c main_v23 : S1x4096.Idx → EReal) (ix2 0 n) := by
  obtain ⟨-, -, -, -, -, -, e0, e1, -⟩ := idx_facts t
  unfold iblk0
  rw [View.read_apply]
  show V c main_v23 _ = V c main_v23 _
  congr 1
  funext a
  apply Fin.ext
  match a with
  | ⟨0, _⟩ => show win0_3.index t 0 * 1 + 1 * 0 = 0; rw [e0]
  | ⟨1, _⟩ => show win0_3.index t 1 * 4096 + 1 * n.val = n.val; rw [e1]; omega

theorem blk4_at (c : Dev nD) (t : Fin cfg0.N) (n : Fin 4096) :
    (iblk0 V c 4 t : Vec Ideal S1x4096 .f32) (ix2 0 n) = (V c main_v24 : S1x4096.Idx → EReal) (ix2 0 n) := by
  obtain ⟨-, -, -, -, -, -, -, -, e0, e1, -⟩ := idx_facts t
  unfold iblk0
  rw [View.read_apply]
  show V c main_v24 _ = V c main_v24 _
  congr 1
  funext a
  apply Fin.ext
  match a with
  | ⟨0, _⟩ => show win0_4.index t 0 * 1 + 1 * 0 = 0; rw [e0]
  | ⟨1, _⟩ => show win0_4.index t 1 * 4096 + 1 * n.val = n.val; rw [e1]; omega

/-- The hidden row `r` at column `e` (the layer followed by `max · 0`), from the arrays as the call finds them. -/
def rowHid (c : Dev nD) (r : Fin 8192) (e : Fin 4096) : EReal :=
  max (callRow (fun k : Fin 1024 => (V c main_v0 : S8192x1024.Idx → EReal) (ix2 r k))
    (fun (n : Fin 4096) (k : Fin 1024) => (V c main_v17 : S4096x1024.Idx → EReal) (ix2 n k))
    ((V c main_v5 : S1x1.Idx → EReal) (ix2 0 0))
    (fun n : Fin 4096 => (V c main_v23 : S1x4096.Idx → EReal) (ix2 0 n))
    (fun n : Fin 4096 => (V c main_v24 : S1x4096.Idx → EReal) (ix2 0 n)) e) (lit 0x00000000#32)

/-- The whole hidden array: every hidden row. -/
def arrHid (c : Dev nD) : S8192x4096.Idx → EReal :=
  fun i => rowHid V c ⟨(i 0).val, idx2_lt0 i⟩ ⟨(i 1).val, idx2_lt1 i⟩

/-- What point `t` writes back is block `t` of the hidden array. -/
theorem flushed5_eq (c : Dev nD) (t : Fin cfg0.N) :
    (dat0 (F := Ideal) V c).flushed 5 t = ((cfg0.win 5).blk t).view.read (Elt Ideal) (arrHid V c) := by
  show (cfg0.win 5).cut (grid0.coords t) ((dat0 (F := Ideal) V c).after 5 t) = _
  rw [after0_5]
  unfold out0_5
  rw [View.canon_unit_zero hz]
  simp only [View.ld_unit_zero (S := S1x1) hz, View.ld_unit_zero (S := S512x1024) hz,
    View.ld_unit_zero (S := S4096x1024) hz, View.ld_unit_zero (S := S1x4096) hz]
  funext j
  obtain ⟨p, q, rfl⟩ : ∃ (p : Fin 512) (q : Fin 4096), j = ix2 p q := ⟨j 0, j 1, eq_ix2 j⟩
  obtain ⟨-, -, -, -, -, -, -, -, -, -, e0, e1⟩ := idx_facts t
  have hemb : ((cfg0.win 5).blk t).view.emb (ix2 p q) = (ix2 ⟨t.val * 512 + p.val, row_lt t p⟩ q : S8192x4096.Idx) := by
    funext a
    apply Fin.ext
    match a with
    | ⟨0, _⟩ => show win0_5.index t 0 * 512 + 1 * p.val = t.val * 512 + p.val; rw [e0]; omega
    | ⟨1, _⟩ => show win0_5.index t 1 * 4096 + 1 * q.val = q.val; rw [e1]; omega
  show k0_pay1 (F := Ideal) (iblk0 V c 2 t) (iblk0 V c 0 t) (iblk0 V c 1 t) (iblk0 V c 3 t) (iblk0 V c 4 t) (ix2 p q)
    = arrHid V c (((cfg0.win 5).blk t).view.emb (ix2 p q))
  rw [hemb]
  refine (pay1_apply (iblk0 V c 2 t) (iblk0 V c 0 t) (iblk0 V c 1 t) (iblk0 V c 3 t) (iblk0 V c 4 t) p q).trans ?_
  show _ = rowHid V c ⟨t.val * 512 + p.val, row_lt t p⟩ q
  unfold rowHid
  refine congrArg (fun z => max z (lit 0x00000000#32)) ?_
  exact callRow_congr (funext fun k => blk0_at V c t p k) (funext fun n => funext fun k => blk1_at V c t n k)
    (blk2_at V c t) (funext fun n => blk3_at V c t n) (funext fun n => blk4_at V c t n) q

/-- An index of the hidden output array is in point `t`'s block iff each coordinate is in the block's range on its axis. -/
theorem mem_blk5 (t : Fin cfg0.N) (i : S8192x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v25_0).slice (win0_5.rect t)).set ↔ _
  rw [View.set_slice_whole, Rect.mem_set_unit]
  exact Iff.rfl

/-- Row `r` of the hidden output is written by point `r / 512`. -/
theorem cover5 (i : S8192x4096.Idx) :
    ∃ t : Fin cfg0.N, (cfg0.win 5).flush t = true ∧ i ∈ ((cfg0.win 5).blk t).view.set := by
  have hi0 : (i 0).val < 8192 := idx2_lt0 i
  have hi1 : (i 1).val < 4096 := idx2_lt1 i
  obtain ⟨t, ht⟩ : ∃ t : Fin cfg0.N, t.val = (i 0).val / 512 :=
    ⟨⟨(i 0).val / 512, lt_of_lt_of_eq (show (i 0).val / 512 < 16 by omega) N_0.symm⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t 0 * 512 ≤ (i 0).val ∧ (i 0).val < win0_5.index t 0 * 512 + 512
    rw [e0, ht]; omega
  | ⟨1, _⟩ =>
    show win0_5.index t 1 * 4096 ≤ (i 1).val ∧ (i 1).val < win0_5.index t 1 * 4096 + 4096
    rw [e1]; omega

/-- The first output array after the call is the hidden array. -/
theorem final5 (c : Dev nD) : (dat0 (F := Ideal) V c).arrAt 5 cfg0.N = arrHid V c :=
  (dat0 (F := Ideal) V c).arrAt_eq_of_cover 5 (arrHid V c) (fun t _ => flushed5_eq V c t) cover5

/-- The first call's hidden output array, entry by entry, for any contents `V` at the call's entry. -/
theorem region0_hidden (c : Dev nD) (r : Fin 8192) (f : Fin 4096) :
    ((dat0 (F := Ideal) V c).arrAt 5 cfg0.N : S8192x4096.Idx → EReal) (ix2 r f)
      = max (callRow (fun k : Fin 1024 => (V c main_v0 : S8192x1024.Idx → EReal) (ix2 r k))
              (fun (n : Fin 4096) (k : Fin 1024) => (V c main_v17 : S4096x1024.Idx → EReal) (ix2 n k))
              ((V c main_v5 : S1x1.Idx → EReal) (ix2 0 0))
              (fun n : Fin 4096 => (V c main_v23 : S1x4096.Idx → EReal) (ix2 0 n))
              (fun n : Fin 4096 => (V c main_v24 : S1x4096.Idx → EReal) (ix2 0 n)) f) (lit 0x00000000#32) := by
  rw [final5 V c]
  rfl

end Region

end Cert.KernelIdeal.Call0H
end
-- ==== Proof.KernelCall0.lean ====
/-
  The first call's second stored value: the maximum of the block it has just computed.

  After storing its `[512, 4096]` block of the hidden layer, the body recasts that block to `[1, 512, 4096]`, takes the
  maximum over the two long axes starting from `-∞`, recasts the one resulting number to `[1, 1, 1]`, reads it out, and
  spreads it over a `[1, 8, 128]` tile.  Over the extended reals a maximum taken from `-∞` over every entry of a finite
  block is the supremum of the entries, and the two recasts only rename indices; so every entry of the tile is

      ⨆ (p < 512) (f < 4096), block (p, f),

  the block being the first stored value of the same inputs.
-/
import proofs.«105257_j19267223290743_2_alg».proof.Proof.Gen.KernelIdeal.Frame
import proofs.«105257_j19267223290743_2_alg».proof.Proof.QuantSpec
import proofs.«105257_j19267223290743_2_alg».proof.Proof.QuantLib
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.QMlp

namespace Cert.KernelIdeal.Call0
open Cert.KernelIdeal Cert.KernelIdeal.Gen

/-- A one-entry vector recast to [1,1,1] and read at its one position is the entry. -/
theorem extract000 (v : FVec Ideal S1 .f32) :
    extractAt ![0, 0, 0] (shapeCast S1x1x1 v shapeCasts_S1_S1x1x1) inpos_S1x1x1_p0_0_0 = v (ix1 0) := by
  unfold extractAt
  refine shapeCast_apply v _ _ (ix1 0) ?_
  rw [Shape.rowMajor_val_one, Shape.rowMajor_val_three]
  rfl

/-- The maximum over a whole [512, 4096] block, taken through its [1, 512, 4096] recast, is the supremum of its entries. -/
theorem reduce_at (P : FVec Ideal S512x4096 .f32) (j : S1.Idx) :
    multiReduction (F := Ideal) .maximumf [1, 2] S1 (shapeCast S1x512x4096 P shapeCasts_S512x4096_S1x512x4096) 0xFF800000#32
        reduces_S1x512x4096_S1 (.inl rfl) rfl j
      = ⨆ (p : Fin 512), ⨆ (f : Fin 4096), P (ix2 p f) := by
  refine (multiReduction_maximumf_eq_fold _ _ _ _ _ j).trans ?_
  have ht : ∀ b : Fin S1.rank, S1.size b = 1 := fun b => by match b with | ⟨0, _⟩ => rfl
  have hp : ∀ i : S1x512x4096.Idx, reduces_S1x512x4096_S1.drop i = j := fun i => funext fun b => Fin.ext (by
    have := (reduces_S1x512x4096_S1.drop i b).isLt; have := (j b).isLt; have := ht b; omega)
  show (Finset.univ.filter fun i => reduces_S1x512x4096_S1.drop i = j).fold max (lit 0xFF800000#32) _ = _
  rw [lit_neg_inf, fold_max_filter_eq_iSup _ hp]
  apply le_antisymm
  · refine iSup_le fun i => ?_
    obtain ⟨u, p, f, rfl⟩ : ∃ (u : Fin 1) (p : Fin 512) (f : Fin 4096), i = ix3 u p f := ⟨i 0, i 1, i 2, eq_ix3 i⟩
    rw [shapeCast_ab_1ab_apply]
    exact le_iSup₂ (f := fun (p : Fin 512) (f : Fin 4096) => P (ix2 p f)) p f
  · refine iSup₂_le fun p f => ?_
    rw [← shapeCast_ab_1ab_apply P shapeCasts_S512x4096_S1x512x4096 0 p f]
    exact le_iSup (fun i => shapeCast S1x512x4096 P shapeCasts_S512x4096_S1x512x4096 i) (ix3 0 p f)

/-- The block's maximum spread over a [1, 8, 128] tile: every entry is the supremum of the block. -/
theorem tile_at (P : FVec Ideal S512x4096 .f32) (j : S1x8x128.Idx) :
    (broadcast S1x8x128 (extractAt ![0, 0, 0] (shapeCast S1x1x1 (multiReduction (F := Ideal) .maximumf [1, 2] S1
        (shapeCast S1x512x4096 P shapeCasts_S512x4096_S1x512x4096) 0xFF800000#32 reduces_S1x512x4096_S1 (.inl rfl) rfl)
        shapeCasts_S1_S1x1x1) inpos_S1x1x1_p0_0_0) j : EReal)
      = (⨆ (p : Fin 512), ⨆ (f : Fin 4096), P (ix2 p f) : EReal) := by
  refine (broadcast_apply _ j).trans ?_
  refine (extract000 _).trans ?_
  exact reduce_at P (ix1 0)

/-- The second stored value, at every position: the supremum of the first stored block. -/
theorem pay2_apply (v0 : Vec Ideal S1x1 .f32) (v2 : Vec Ideal S512x1024 .f32) (v12 : Vec Ideal S4096x1024 .bf16)
    (v15 v19 : Vec Ideal S1x4096 .f32) (j : S1x8x128.Idx) :
    (k0_pay2 (F := Ideal) v0 v2 v12 v15 v19 : S1x8x128.Idx → EReal) j
      = ⨆ (p : Fin 512), ⨆ (f : Fin 4096), (k0_pay1 (F := Ideal) v0 v2 v12 v15 v19 : S512x4096.Idx → EReal) (ix2 p f) :=
  tile_at (k0_pay1 (F := Ideal) v0 v2 v12 v15 v19) j

end Cert.KernelIdeal.Call0
end
-- ==== Proof.KernelCall0Max.lean ====
/-
  The first call's second output, the array of block maxima, entry by entry.

  Beside the hidden block of rows `512 t … 512 t + 511` the body of point `t` stores, in every position of block `t` of a
  `[16, 8, 128]` array, the maximum of the hidden block it has just computed (a reduction from `-∞` over the block's
  two axes).  Block `t` of that array is written by point `t` alone, so after the call entry `(t, a, l)` holds the
  supremum of the hidden array over rows `512 t … 512 t + 511` and all 4096 columns.
-/
import proofs.«105257_j19267223290743_2_alg».proof.Proof.Gen.KernelIdeal.Frame
import proofs.«105257_j19267223290743_2_alg».proof.Proof.QuantSpec
import proofs.«105257_j19267223290743_2_alg».proof.Proof.QuantLib
import proofs.«105257_j19267223290743_2_alg».proof.Proof.KernelCall0Hid
import proofs.«105257_j19267223290743_2_alg».proof.Proof.KernelCall0
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.QMlp

namespace Cert.KernelIdeal.Call0M
open Cert.KernelIdeal Cert.KernelIdeal.Gen

theorem hz3 : (![0, 0, 0] : Fin 3 → Nat) = fun _ => 0 := funext fun a => by fin_cases a <;> rfl

/-- The printed index map of the block-maximum window, decided once over the 16 grid points: point `t` takes block
    `(t, 0, 0)`. -/
theorem idx6 : ∀ t : Fin cfg0.N,
      win0_6.index t (0 : Fin 3) = t.val ∧ win0_6.index t (1 : Fin 3) = 0 ∧ win0_6.index t (2 : Fin 3) = 0 :=
  (by decide +kernel : ∀ t : Fin grid0.N, _)

theorem pt_lt (t : Fin cfg0.N) : t.val < 16 := lt_of_lt_of_eq t.isLt N_0

section Region
variable (V : (c : Dev nD) → (b : Ref sig .tc) → Buf (Elt Ideal) ((c : Thread nD τ).loc b))

/-- The hidden block of point `t`, read at row `p`, column `f` of the block, is the hidden row `512 t + p` at `f`. -/
theorem pay1_block (c : Dev nD) (t : Fin cfg0.N) (p : Fin 512) (f : Fin 4096) :
    (k0_pay1 (F := Ideal) (iblk0 V c 2 t) (iblk0 V c 0 t) (iblk0 V c 1 t) (iblk0 V c 3 t) (iblk0 V c 4 t)
        : S512x4096.Idx → EReal) (ix2 p f)
      = Call0H.rowHid V c ⟨t.val * 512 + p.val, Call0H.row_lt t p⟩ f := by
  refine (Call0H.pay1_apply (iblk0 V c 2 t) (iblk0 V c 0 t) (iblk0 V c 1 t) (iblk0 V c 3 t) (iblk0 V c 4 t) p f).trans ?_
  unfold Call0H.rowHid
  refine congrArg (fun z => max z (lit 0x00000000#32)) ?_
  exact Call0H.callRow_congr (funext fun k => Call0H.blk0_at V c t p k)
    (funext fun n => funext fun k => Call0H.blk1_at V c t n k) (Call0H.blk2_at V c t)
    (funext fun n => Call0H.blk3_at V c t n) (funext fun n => Call0H.blk4_at V c t n) f

/-- The largest entry of the hidden rows `512 t … 512 t + 511`. -/
def tileVal (c : Dev nD) (t : Fin 16) : EReal :=
  ⨆ (p : Fin 512), ⨆ (f : Fin 4096), Call0H.rowHid V c ⟨t.val * 512 + p.val, by omega⟩ f

/-- The whole array of block maxima: entry `(t, a, l)` is block `t`'s maximum. -/
def arrMax (c : Dev nD) : S16x8x128.Idx → EReal := fun i => tileVal V c ⟨(i 0).val, (i 0).isLt⟩

/-- What point `t` writes back is block `t` of the array of block maxima. -/
theorem flushed6_eq (c : Dev nD) (t : Fin cfg0.N) :
    (dat0 (F := Ideal) V c).flushed 6 t = ((cfg0.win 6).blk t).view.read (Elt Ideal) (arrMax V c) := by
  show (cfg0.win 6).cut (grid0.coords t) ((dat0 (F := Ideal) V c).after 6 t) = _
  rw [after0_6]
  unfold out0_6
  rw [View.canon_unit_zero hz3]
  simp only [View.ld_unit_zero (S := S1x1) Call0H.hz, View.ld_unit_zero (S := S512x1024) Call0H.hz,
    View.ld_unit_zero (S := S4096x1024) Call0H.hz, View.ld_unit_zero (S := S1x4096) Call0H.hz]
  funext j
  obtain ⟨u, a, l, rfl⟩ : ∃ (u : Fin 1) (a : Fin 8) (l : Fin 128), j = ix3 u a l := ⟨j 0, j 1, j 2, eq_ix3 j⟩
  obtain ⟨e0, e1, e2⟩ := idx6 t
  have hu : u.val = 0 := by have := u.isLt; omega
  have hemb : ((cfg0.win 6).blk t).view.emb (ix3 u a l) = (ix3 (⟨t.val, pt_lt t⟩ : Fin 16) a l : S16x8x128.Idx) := by
    funext d
    apply Fin.ext
    match d with
    | ⟨0, _⟩ => show win0_6.index t 0 * 1 + 1 * u.val = t.val; rw [e0, hu]; omega
    | ⟨1, _⟩ => show win0_6.index t 1 * 8 + 1 * a.val = a.val; rw [e1]; omega
    | ⟨2, _⟩ => show win0_6.index t 2 * 128 + 1 * l.val = l.val; rw [e2]; omega
  show k0_pay2 (F := Ideal) (iblk0 V c 2 t) (iblk0 V c 0 t) (iblk0 V c 1 t) (iblk0 V c 3 t) (iblk0 V c 4 t) (ix3 u a l)
    = arrMax V c (((cfg0.win 6).blk t).view.emb (ix3 u a l))
  rw [hemb]
  refine (Call0.pay2_apply _ _ _ _ _ _).trans ?_
  show _ = tileVal V c ⟨t.val, pt_lt t⟩
  unfold tileVal
  exact iSup_congr fun p => iSup_congr fun f => pay1_block V c t p f

/-- An index of the array of block maxima is in point `t`'s block iff each coordinate is in the block's range. -/
theorem mem_blk6 (t : Fin cfg0.N) (i : S16x8x128.Idx) :
    i ∈ ((cfg0.win 6).blk t).view.set ↔ ∀ a : Fin 3, win0_6.index t a * S1x8x128.size a ≤ (i a).val
      ∧ (i a).val < win0_6.index t a * S1x8x128.size a + S1x8x128.size a := by
  show i ∈ ((View.whole main_v25_1).slice (win0_6.rect t)).set ↔ _
  rw [View.set_slice_whole, Rect.mem_set_unit]
  exact Iff.rfl

/-- Block `t` of the array of block maxima is written by point `t`. -/
theorem cover6 (i : S16x8x128.Idx) :
    ∃ t : Fin cfg0.N, (cfg0.win 6).flush t = true ∧ i ∈ ((cfg0.win 6).blk t).view.set := by
  have hi0 : (i 0).val < 16 := (i 0).isLt
  have hi1 : (i 1).val < 8 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨e0, e1, e2⟩ := idx6 t
  refine ⟨t, flush0_6 t, ?_⟩
  rw [mem_blk6]
  intro a
  match a with
  | ⟨0, _⟩ =>
    show win0_6.index t 0 * 1 ≤ (i 0).val ∧ (i 0).val < win0_6.index t 0 * 1 + 1
    rw [e0, ht]; omega
  | ⟨1, _⟩ =>
    show win0_6.index t 1 * 8 ≤ (i 1).val ∧ (i 1).val < win0_6.index t 1 * 8 + 8
    rw [e1]; omega
  | ⟨2, _⟩ =>
    show win0_6.index t 2 * 128 ≤ (i 2).val ∧ (i 2).val < win0_6.index t 2 * 128 + 128
    rw [e2]; omega

/-- The second output array after the call is the array of block maxima. -/
theorem final6 (c : Dev nD) : (dat0 (F := Ideal) V c).arrAt 6 cfg0.N = arrMax V c :=
  (dat0 (F := Ideal) V c).arrAt_eq_of_cover 6 (arrMax V c) (fun t _ => flushed6_eq V c t) cover6

/-- Entry `(t, a, l)` of the array of block maxima is the supremum of the hidden output over rows
    `512 t … 512 t + 511` and all columns, for any contents `V` at the call's entry. -/
theorem region0_tilemax (c : Dev nD) (t : Fin 16) (a : Fin 8) (l : Fin 128) :
    ((dat0 (F := Ideal) V c).arrAt 6 cfg0.N : S16x8x128.Idx → EReal) (ix3 t a l)
      = (⨆ (p : Fin 512), ⨆ (f : Fin 4096),
          ((dat0 (F := Ideal) V c).arrAt 5 cfg0.N : S8192x4096.Idx → EReal) (ix2 ⟨t.val * 512 + p.val, by omega⟩ f) : EReal) := by
  rw [final6 V c, Call0H.final5 V c]
  rfl

end Region

end Cert.KernelIdeal.Call0M
end
-- ==== Proof.KernelCall1.lean ====
/-
  The second call's output array, entry by entry.

  The call runs over a grid of 16 points.  Point `t` reads rows `512 t … 512 t + 511` of the `[8192, 4096]` activation,
  the whole `[1024, 4096]` matrix of weight codes, the `[1, 1]` reciprocal of the activation scale and the two
  `[1, 1024]` rows (the product scales and the quantised biases), and writes rows `512 t … 512 t + 511` of the
  `[8192, 1024]` output.  At row `p`, column `q` of its block the body stores

      (∑ₖ clip (round (h p k · inv)) 0 255 · cw q k) · scale q + bq q,

  a matrix product onto a zero accumulator (the sum over the 4096 shared coordinates), then one multiplication and one
  addition by rows broadcast over the 512 rows.  Every row `r` of the output lies in exactly the block of point
  `r / 512`, so after the call the output array holds, at `(r, e)`, the layer's row `callRow` of row `r` of the
  activation — for any contents of the buffers at the call's entry.
-/
import proofs.«105257_j19267223290743_2_alg».proof.Proof.Gen.KernelIdeal.Frame
import proofs.«105257_j19267223290743_2_alg».proof.Proof.QuantSpec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.QMlp

namespace Cert.KernelIdeal.Call1
open Cert.KernelIdeal Cert.KernelIdeal.Gen

/-! ## The body's arithmetic at one output coordinate -/

/-- The matrix product's dimension numbers: rows of the left operand against rows of the right one. -/
abbrev DD : DotDims S512x4096 S1024x4096 S512x1024 := dot_S512x4096_S1024x4096_S512x1024_1_1_0_0_n_n

theorem lhs_row (i : S512x1024.Idx) (q : DD.contr.Idx) : (DD.lhsIdx i q 0).val = (i 0).val := by
  unfold DotDims.lhsIdx
  rw [dif_neg (show ¬(0 : Fin S512x4096.rank) ∈ DD.lhsBatch by decide), dif_pos (show (0 : Fin S512x4096.rank) ∈ DD.lhsNonContracting by decide)]
  rfl

theorem lhs_col (i : S512x1024.Idx) (q : DD.contr.Idx) : (DD.lhsIdx i q 1).val = (q ⟨0, by decide⟩).val :=
  DD.lhsIdx_val_of_single rfl i q

theorem rhs_row (i : S512x1024.Idx) (q : DD.contr.Idx) : (DD.rhsIdx i q 0).val = (i 1).val := by
  unfold DotDims.rhsIdx
  rw [dif_neg (show ¬(0 : Fin S1024x4096.rank) ∈ DD.rhsBatch by decide), dif_pos (show (0 : Fin S1024x4096.rank) ∈ DD.rhsNonContracting by decide)]
  rfl

theorem rhs_col (i : S512x1024.Idx) (q : DD.contr.Idx) : (DD.rhsIdx i q 1).val = (q ⟨0, by decide⟩).val :=
  DD.rhsIdx_val_of_single rfl i q

/-- The matrix product onto the zero accumulator, at row `p` and column `q`: the sum over the 4096 shared
    coordinates of the products of the two operands' rows. -/
theorem matmul_at (a : FVec Ideal S512x4096 .bf16) (b : FVec Ideal S1024x4096 .bf16) (p : Fin 512) (q : Fin 1024) :
    (FloatOps.matmul DD none a b (constant S512x1024 .f32 0x00000000#32) : FVec Ideal S512x1024 .f32) (ix2 p q)
      = ∑ k : Fin 4096, a (ix2 p k) * b (ix2 q k) := by
  rw [Ideal.matmul_constant_zero_apply, ← Equiv.sum_comp (contrEquiv1 DD 4096 rfl rfl).symm]
  refine Finset.sum_congr rfl fun k _ => ?_
  have hk := contrEquiv1_symm_val DD 4096 rfl rfl k
  have el : DD.lhsIdx (ix2 p q) ((contrEquiv1 DD 4096 rfl rfl).symm k) = ix2 p k := funext fun a => Fin.ext (by
    match a with
    | ⟨0, _⟩ => exact lhs_row _ _
    | ⟨1, _⟩ => exact (lhs_col _ _).trans hk)
  have er : DD.rhsIdx (ix2 p q) ((contrEquiv1 DD 4096 rfl rfl).symm k) = ix2 q k := funext fun a => Fin.ext (by
    match a with
    | ⟨0, _⟩ => exact rhs_row _ _
    | ⟨1, _⟩ => exact (rhs_col _ _).trans hk)
  rw [el, er]

/-- The body's stored value at row `p`, column `q` of its block: the coded activations times the weight codes, summed,
    scaled by the column's scale, the column's quantised bias added. -/
theorem pay_at (v0 : Vec Ideal S1x1 .f32) (v2 : Vec Ideal S512x4096 .f32) (v12 : Vec Ideal S1024x4096 .bf16)
    (v15 v19 : Vec Ideal S1x1024 .f32) (p : Fin 512) (q : Fin 1024) :
    (k1_pay1 (F := Ideal) v0 v2 v12 v15 v19 : S512x1024.Idx → EReal) (ix2 p q)
      = (∑ k : Fin 4096, codeMul ((v0 : S1x1.Idx → EReal) (ix2 0 0)) ((v2 : S512x4096.Idx → EReal) (ix2 p k))
            * (v12 : S1024x4096.Idx → EReal) (ix2 q k))
          * (v15 : S1x1024.Idx → EReal) (ix2 0 q) + (v19 : S1x1024.Idx → EReal) (ix2 0 q) := by
  unfold k1_pay1
  simp only [shapeCast_self]
  rw [addf_apply, mulf_apply]
  rw [broadcastTo_1b_ab_apply, broadcastTo_1b_ab_apply]
  refine congrArg (· * _ + _) ?_
  refine (matmul_at _ _ p q).trans ?_
  refine Finset.sum_congr rfl fun k _ => ?_
  refine congrArg (· * _) ?_
  show min _ (max _ (Ideal.liftRound Ideal.roundHalfEven (v2 (ix2 p k) * extractAt ![0, 0] v0 inpos_S1x1_p0_0))) = _
  unfold codeMul rne lit
  have e0 : extractAt ![0, 0] v0 inpos_S1x1_p0_0 = v0 (ix2 0 0) := by
    unfold extractAt
    exact congrArg v0 (funext fun a => by match a with | ⟨0, _⟩ => rfl | ⟨1, _⟩ => rfl)
  rw [e0]
  rfl

/-! ## The blocks the grid's points read, and the block each of them writes -/

theorem hz : (![0, 0] : Fin 2 → Nat) = fun _ => 0 := funext fun a => by fin_cases a <;> rfl

/-- The printed index maps, decided once over the 16 grid points: point `t` takes block row `t` of the activation
    and of the output, and block (0, 0) of everything else. -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `512 t + p` of the array. -/
theorem row_lt (t : Fin cfg1.N) (p : Fin 512) : t.val * 512 + p.val < 8192 := by
  have h1 : t.val < 16 := lt_of_lt_of_eq t.isLt N_1
  have h2 := p.isLt
  omega

section Region
variable (V : (c : Dev nD) → (b : Ref sig .tc) → Buf (Elt Ideal) ((c : Thread nD τ).loc b))

theorem blk0_at (c : Dev nD) (t : Fin cfg1.N) (p : Fin 512) (k : Fin 4096) :
    (iblk1 V c 0 t : Vec Ideal S512x4096 .f32) (ix2 p k)
      = (V c main_v25_0 : S8192x4096.Idx → EReal) (ix2 ⟨t.val * 512 + p.val, row_lt t p⟩ k) := by
  obtain ⟨e0, e1, -⟩ := idx_facts t
  unfold iblk1
  rw [View.read_apply]
  show V c main_v25_0 _ = V c main_v25_0 _
  congr 1
  funext a
  apply Fin.ext
  match a with
  | ⟨0, _⟩ => show win1_0.index t 0 * 512 + 1 * p.val = t.val * 512 + p.val; rw [e0]; omega
  | ⟨1, _⟩ => show win1_0.index t 1 * 4096 + 1 * k.val = k.val; rw [e1]; omega

theorem blk1_at (c : Dev nD) (t : Fin cfg1.N) (n : Fin 1024) (k : Fin 4096) :
    (iblk1 V c 1 t : Vec Ideal S1024x4096 .bf16) (ix2 n k) = (V c main_v42 : S1024x4096.Idx → EReal) (ix2 n k) := by
  obtain ⟨-, -, e0, e1, -⟩ := idx_facts t
  unfold iblk1
  rw [View.read_apply]
  show V c main_v42 _ = V c main_v42 _
  congr 1
  funext a
  apply Fin.ext
  match a with
  | ⟨0, _⟩ => show win1_1.index t 0 * 1024 + 1 * n.val = n.val; rw [e0]; omega
  | ⟨1, _⟩ => show win1_1.index t 1 * 4096 + 1 * k.val = k.val; rw [e1]; omega

theorem blk2_at (c : Dev nD) (t : Fin cfg1.N) :
    (iblk1 V c 2 t : Vec Ideal S1x1 .f32) (ix2 0 0) = (V c main_v30 : S1x1.Idx → EReal) (ix2 0 0) := by
  obtain ⟨-, -, -, -, e0, e1, -⟩ := idx_facts t
  unfold iblk1
  rw [View.read_apply]
  show V c main_v30 _ = V c main_v30 _
  congr 1
  funext a
  apply Fin.ext
  match a with
  | ⟨0, _⟩ => show win1_2.index t 0 * 1 + 1 * 0 = 0; rw [e0]
  | ⟨1, _⟩ => show win1_2.index t 1 * 1 + 1 * 0 = 0; rw [e1]

theorem blk3_at (c : Dev nD) (t : Fin cfg1.N) (n : Fin 1024) :
    (iblk1 V c 3 t : Vec Ideal S1x1024 .f32) (ix2 0 n) = (V c main_v48 : S1x1024.Idx → EReal) (ix2 0 n) := by
  obtain ⟨-, -, -, -, -, -, e0, e1, -⟩ := idx_facts t
  unfold iblk1
  rw [View.read_apply]
  show V c main_v48 _ = V c main_v48 _
  congr 1
  funext a
  apply Fin.ext
  match a with
  | ⟨0, _⟩ => show win1_3.index t 0 * 1 + 1 * 0 = 0; rw [e0]
  | ⟨1, _⟩ => show win1_3.index t 1 * 1024 + 1 * n.val = n.val; rw [e1]; omega

theorem blk4_at (c : Dev nD) (t : Fin cfg1.N) (n : Fin 1024) :
    (iblk1 V c 4 t : Vec Ideal S1x1024 .f32) (ix2 0 n) = (V c main_v49 : S1x1024.Idx → EReal) (ix2 0 n) := by
  obtain ⟨-, -, -, -, -, -, -, -, e0, e1, -⟩ := idx_facts t
  unfold iblk1
  rw [View.read_apply]
  show V c main_v49 _ = V c main_v49 _
  congr 1
  funext a
  apply Fin.ext
  match a with
  | ⟨0, _⟩ => show win1_4.index t 0 * 1 + 1 * 0 = 0; rw [e0]
  | ⟨1, _⟩ => show win1_4.index t 1 * 1024 + 1 * n.val = n.val; rw [e1]; omega

/-- The layer's row `r` at output column `e`, from the arrays as the call finds them. -/
def rowOut (c : Dev nD) (r : Fin 8192) (e : Fin 1024) : EReal :=
  callRow (fun k : Fin 4096 => (V c main_v25_0 : S8192x4096.Idx → EReal) (ix2 r k))
    (fun (n : Fin 1024) (k : Fin 4096) => (V c main_v42 : S1024x4096.Idx → EReal) (ix2 n k))
    ((V c main_v30 : S1x1.Idx → EReal) (ix2 0 0))
    (fun n : Fin 1024 => (V c main_v48 : S1x1024.Idx → EReal) (ix2 0 n))
    (fun n : Fin 1024 => (V c main_v49 : S1x1024.Idx → EReal) (ix2 0 n)) e

/-- The whole output array: every row of the layer. -/
def arrOut (c : Dev nD) : S8192x1024.Idx → EReal :=
  fun i => rowOut V c ⟨(i 0).val, idx2_lt0 i⟩ ⟨(i 1).val, idx2_lt1 i⟩

/-- What point `t` writes back is block `t` of the layer's output. -/
theorem flushed_eq (c : Dev nD) (t : Fin cfg1.N) :
    (dat1 (F := Ideal) V c).flushed 5 t = ((cfg1.win 5).blk t).view.read (Elt Ideal) (arrOut V c) := by
  show (cfg1.win 5).cut (grid1.coords t) ((dat1 (F := Ideal) V c).after 5 t) = _
  rw [after1_5]
  unfold out1_5
  rw [View.canon_unit_zero hz]
  simp only [View.ld_unit_zero (S := S1x1) hz, View.ld_unit_zero (S := S512x4096) hz,
    View.ld_unit_zero (S := S1024x4096) hz, View.ld_unit_zero (S := S1x1024) hz]
  funext j
  obtain ⟨p, q, rfl⟩ : ∃ (p : Fin 512) (q : Fin 1024), j = ix2 p q := ⟨j 0, j 1, eq_ix2 j⟩
  obtain ⟨-, -, -, -, -, -, -, -, -, -, e0, e1⟩ := idx_facts t
  have hemb : ((cfg1.win 5).blk t).view.emb (ix2 p q) = (ix2 ⟨t.val * 512 + p.val, row_lt t p⟩ q : S8192x1024.Idx) := by
    funext a
    apply Fin.ext
    match a with
    | ⟨0, _⟩ => show win1_5.index t 0 * 512 + 1 * p.val = t.val * 512 + p.val; rw [e0]; omega
    | ⟨1, _⟩ => show win1_5.index t 1 * 1024 + 1 * q.val = q.val; rw [e1]; omega
  show k1_pay1 (F := Ideal) (iblk1 V c 2 t) (iblk1 V c 0 t) (iblk1 V c 1 t) (iblk1 V c 3 t) (iblk1 V c 4 t) (ix2 p q)
    = arrOut V c (((cfg1.win 5).blk t).view.emb (ix2 p q))
  rw [hemb]
  refine (pay_at (iblk1 V c 2 t) (iblk1 V c 0 t) (iblk1 V c 1 t) (iblk1 V c 3 t) (iblk1 V c 4 t) p q).trans ?_
  show _ = rowOut V c ⟨t.val * 512 + p.val, row_lt t p⟩ q
  unfold rowOut callRow
  refine congrArg₂ (· + ·) (congrArg₂ (· * ·) (Finset.sum_congr rfl fun k _ => ?_) (blk3_at V c t q)) (blk4_at V c t q)
  rw [blk0_at V c t p k, blk1_at V c t q k, blk2_at V c t]

/-- An index of the output array is in point `t`'s block iff each coordinate is in the block's range on its axis. -/
theorem mem_blk (t : Fin cfg1.N) (i : S8192x1024.Idx) :
    i ∈ ((cfg1.win 5).blk t).view.set ↔ ∀ a : Fin 2, win1_5.index t a * S512x1024.size a ≤ (i a).val
      ∧ (i a).val < win1_5.index t a * S512x1024.size a + S512x1024.size a := by
  show i ∈ ((View.whole main_v50).slice (win1_5.rect t)).set ↔ _
  rw [View.set_slice_whole, Rect.mem_set_unit]
  exact Iff.rfl

/-- Row `r` of the output is written by point `r / 512`. -/
theorem cover (i : S8192x1024.Idx) :
    ∃ t : Fin cfg1.N, (cfg1.win 5).flush t = true ∧ i ∈ ((cfg1.win 5).blk t).view.set := by
  have hi0 : (i 0).val < 8192 := idx2_lt0 i
  have hi1 : (i 1).val < 1024 := idx2_lt1 i
  obtain ⟨t, ht⟩ : ∃ t : Fin cfg1.N, t.val = (i 0).val / 512 :=
    ⟨⟨(i 0).val / 512, lt_of_lt_of_eq (show (i 0).val / 512 < 16 by omega) N_1.symm⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t 0 * 512 ≤ (i 0).val ∧ (i 0).val < win1_5.index t 0 * 512 + 512
    rw [e0, ht]; omega
  | ⟨1, _⟩ =>
    show win1_5.index t 1 * 1024 ≤ (i 1).val ∧ (i 1).val < win1_5.index t 1 * 1024 + 1024
    rw [e1]; omega

/-- The output array after the call is the layer's output. -/
theorem final (c : Dev nD) : (dat1 (F := Ideal) V c).arrAt 5 cfg1.N = arrOut V c :=
  (dat1 (F := Ideal) V c).arrAt_eq_of_cover 5 (arrOut V c) (fun t _ => flushed_eq V c t) cover

/-- The second call's output array, entry by entry, for any contents `V` at the call's entry. -/
theorem region1_out (c : Dev nD) (r : Fin 8192) (e : Fin 1024) :
    ((dat1 (F := Ideal) V c).arrAt 5 cfg1.N : S8192x1024.Idx → EReal) (ix2 r e)
      = callRow (fun k : Fin 4096 => (V c main_v25_0 : S8192x4096.Idx → EReal) (ix2 r k))
              (fun (n : Fin 1024) (k : Fin 4096) => (V c main_v42 : S1024x4096.Idx → EReal) (ix2 n k))
              ((V c main_v30 : S1x1.Idx → EReal) (ix2 0 0))
              (fun n : Fin 1024 => (V c main_v48 : S1x1024.Idx → EReal) (ix2 0 n))
              (fun n : Fin 1024 => (V c main_v49 : S1x1024.Idx → EReal) (ix2 0 n)) e := by
  rw [final V c]
  rfl

end Region

end Cert.KernelIdeal.Call1
end
-- ==== Proof.KernelPre0.lean ====
/-
  What the host operations before the first call leave in its five operand arrays.

  Before the first call the program computes, from the input tensor `x` (4 × 2048 rows of 1024 columns), the first
  layer's weights `w1` (4096 × 1024) and bias `b1` (4096):
  * the input reshaped to 8192 rows: row `b·2048 + t` is row `(b, t)`, the two having the same row-major position;
  * the activation scale `max (largest entry of x) ε / 255` — the reduce over both axes of the reshaped input, started
    from `-∞`, is a fold of `max` over every index, hence the supremum, and the supremum over the reshaped indices is the
    supremum over rows and columns of `x` because the reshape is onto — and its reciprocal as a 1 × 1 array;
  * per output channel `n` the weight scale `max (maxₖ |w1 n k|) ε / 127` — the reduce along the columns is a fold of
    `max` over the column index, and `|a| = max a (-a)` —, the weight codes `clip (round (w1 n k / scaleₙ)) (-128) 127`
    (the change to the narrow format is the identity on extended reals);
  * the product of the two scales as a one-row matrix, and the bias rounded onto that product's grid, likewise.
  Each buffer is first identified with ONE term of the argument arrays (the host operations composed), then that term
  is read at an index, operation by operation.
-/
import proofs.«105257_j19267223290743_2_alg».proof.Proof.Gen.KernelIdeal.Frame
import proofs.«105257_j19267223290743_2_alg».proof.Proof.QuantSpec
import proofs.«105257_j19267223290743_2_alg».proof.Proof.QuantLib
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce
import Idealize.ShloMosaic.Lib.StableHlo.Run

noncomputable section

open Idealize.ShloMosaic Idealize.ShloMosaic.TcCoe Idealize.SL.Sem Idealize.ShloMosaic.ValueIdx
open Cert.QMlp

namespace Cert.KernelIdeal.Pre0
open Cert.KernelIdeal Cert.KernelIdeal.Gen

variable (m : (ℓ : Loc nD τ sig) → Buf (Elt Ideal) ℓ) (ρ : Dev nD → PrngReg)

/-- the argument arrays as launched -/
abbrev aX (c : Dev nD) : S4x2048x1024.Idx → EReal := m ((c.tc : Thread nD τ).loc main_arg0)
abbrev aW1 (c : Dev nD) : S4096x1024.Idx → EReal := m ((c.tc : Thread nD τ).loc main_arg1)
abbrev aB1 (c : Dev nD) : S4096.Idx → EReal := m ((c.tc : Thread nD τ).loc main_arg2)
abbrev aW2 (c : Dev nD) : S1024x4096.Idx → EReal := m ((c.tc : Thread nD τ).loc main_arg3)
abbrev aB2 (c : Dev nD) : S1024.Idx → EReal := m ((c.tc : Thread nD τ).loc main_arg4)

/-! ## The host operations' results as terms of the argument arrays -/

/-- A float array of a literal shape at the exact instance. -/
abbrev Arr (s : Shape) : Type := FVec Ideal s .f32

section Terms

variable (X : Arr S4x2048x1024) (W : Arr S4096x1024) (B : Arr S4096)

/-- The input as 8192 rows of 1024 columns. -/
def tX : Arr S8192x1024 := shapeCast S8192x1024 X shapeCasts_S4x2048x1024_S8192x1024

/-- The activation scale as a rank-0 array: max (largest entry, from -∞) ε / 255. -/
def tS : Arr S_ :=
  Host.divf (maximumf (Host.reduce FloatOps.maximumf (tX X) (constant (F := Ideal) S_ .f32 0xFF800000#32) reducesTo_S8192x1024_S_d0_1 h_S_)
    (constant (F := Ideal) S_ .f32 0x322BCC77#32)) (constant (F := Ideal) S_ .f32 0x437F0000#32)

/-- The reciprocal of the activation scale as a 1×1 array. -/
def tInv : Arr S1x1 := shapeCast S1x1 (Host.divf (constant (F := Ideal) S_ .f32 0x3F800000#32) (tS X)) shapeCasts_S_S1x1

/-- The channel scales: max (largest |entry| of the row, from -∞) ε / 127. -/
def tC : Arr S4096 :=
  Host.divf (maximumf (Host.reduce FloatOps.maximumf (Host.absf W) (constant (F := Ideal) S_ .f32 0xFF800000#32) reducesTo_S4096x1024_S4096_d1 h_S_)
      (broadcastInDim S4096 ![] bcast_S_S4096 (constant (F := Ideal) S_ .f32 0x322BCC77#32)))
    (broadcastInDim S4096 ![] bcast_S_S4096 (constant (F := Ideal) S_ .f32 0x42FE0000#32))

/-- The weight codes before the (exact) change of format. -/
def tQ : Arr S4096x1024 :=
  minimumf (broadcastInDim S4096x1024 ![] bcast_S_S4096x1024 (id (constant (F := Ideal) S_ .f32 0x42FE0000#32)))
    (maximumf (broadcastInDim S4096x1024 ![] bcast_S_S4096x1024 (id (constant (F := Ideal) S_ .f32 0xC3000000#32)))
      (Host.roundeven (Host.divf W
        (broadcastInDim S4096x1024 ![0, 1] bcast_S4096x1_S4096x1024_0_1 (broadcastInDim S4096x1 ![0] bcast_S4096_S4096x1_0 (tC W))))))

/-- The products of the activation scale and the channel scales. -/
def tP : Arr S4096 := mulf (broadcastInDim S4096 ![] bcast_S_S4096 (tS X)) (tC W)

/-- The bias rounded onto the grid of the product scale. -/
def tBq : Arr S4096 := mulf (Host.roundeven (Host.divf B (tP X W))) (tP X W)

end Terms

/-! ## The terms read at an index -/

section Reads

variable (X : Arr S4x2048x1024) (W : Arr S4096x1024) (B : Arr S4096)

/-- Row `b·2048 + t` of the reshaped input is row `(b, t)` of the input: the two have the same row-major position. -/
theorem tX_apply (b : Fin 4) (t : Fin 2048) (k : Fin 1024) :
    tX X (ix2 ⟨b.val * 2048 + t.val, by omega⟩ k) = X (ix3 b t k) := by
  unfold tX
  exact shapeCast_apply X shapeCasts_S4x2048x1024_S8192x1024 _ (ix3 b t k)
    (by rewrite [Shape.rowMajor_val_three, Shape.rowMajor_val_two]
        show (b.val * 2048 + t.val) * 1024 + k.val = (b.val * 2048 + t.val) * 1024 + k.val
        rfl)

/-- Every index of the reshaped input is such a row and a column. -/
theorem idx_split (i : S8192x1024.Idx) :
    ∃ (b : Fin 4) (t : Fin 2048) (k : Fin 1024), i = ix2 ⟨b.val * 2048 + t.val, by omega⟩ k := by
  have h0 : (i 0).val < 8192 := (i 0).isLt
  refine ⟨⟨(i 0).val / 2048, by omega⟩, ⟨(i 0).val % 2048, by omega⟩, i 1, ?_⟩
  refine (eq_ix2 i).trans ?_
  congr 1
  exact Fin.ext (by show (i 0).val = (i 0).val / 2048 * 2048 + (i 0).val % 2048; omega)

/-- The supremum over the reshaped input is the supremum over rows and columns of the input. -/
theorem iSup_tX : (⨆ i : S8192x1024.Idx, tX X i) = inMax (rows3 X) := by
  unfold inMax rows3
  apply le_antisymm
  · refine iSup_le fun i => ?_
    obtain ⟨b, t, k, rfl⟩ := idx_split i
    rw [tX_apply]
    exact le_iSup₂ (f := fun (p : Fin 4 × Fin 2048) (d : Fin 1024) => X (ix3 p.1 p.2 d)) (b, t) k
  · refine iSup_le fun p => iSup_le fun d => ?_
    rw [← tX_apply X p.1 p.2 d]
    exact le_iSup (fun i => tX X i) _

/-- A fold of the float maximum from the word of `-∞` over a subset that is everything is the supremum (the index type,
    its enumeration and the subset's decision procedure are whatever the fold was stated with). -/
theorem fold_maximumf_filter {ι : Type} {ft : Fintype ι} (p : ι → Prop) {dp : DecidablePred p} (hp : ∀ i, p i) (f : ι → EReal) :
    (Finset.univ.filter p).fold (FloatOps.maximumf (F := Ideal) (φ := .f32)) (Ideal.ofBits .f32 0xFF800000#32) f = ⨆ i, f i := by
  show (Finset.univ.filter p).fold max (lit 0xFF800000#32) f = _
  rw [lit_neg_inf]
  exact fold_max_filter_eq_iSup p hp f

/-- The full reduce of the reshaped input from `-∞` is the largest entry of the input. -/
theorem reduce_tX (j : S_.Idx) :
    Host.reduce (FloatOps.maximumf (F := Ideal) (φ := .f32)) (tX X) (constant (F := Ideal) S_ .f32 0xFF800000#32)
      reducesTo_S8192x1024_S_d0_1 h_S_ j = inMax (rows3 X) := by
  rw [Host.reduce_eq_fold, constant_apply, ← iSup_tX]
  exact fold_maximumf_filter _ (fun i => funext fun a => a.elim0) _

/-- The host's quotient, rounding and absolute value at an index. -/
theorem hdiv_apply {s : Shape} (a b : FVec Ideal s .f32) (i : s.Idx) : Host.divf a b i = Ideal.div (a i) (b i) := rfl
theorem hround_apply {s : Shape} (a : FVec Ideal s .f32) (i : s.Idx) : Host.roundeven a i = rne (a i) := rfl
theorem habs_apply {s : Shape} (a : FVec Ideal s .f32) (i : s.Idx) : Host.absf a i = max (a i) (-(a i)) := rfl

theorem tS_apply (j : S_.Idx) : tS X j = actScale (inMax (rows3 X)) := by
  unfold tS actScale
  rw [hdiv_apply, maximumf_apply, reduce_tX, constant_apply, constant_apply]
  first | done | rfl

theorem tInv_apply : tInv X (ix2 0 0) = Ideal.div (lit 0x3F800000#32) (actScale (inMax (rows3 X))) := by
  unfold tInv
  refine (shapeCast_apply _ shapeCasts_S_S1x1 (ix2 0 0) ix0
    (by rw [Shape.rowMajor_val_two]; exact Shape.rowMajorPi_zero _ _)).trans ?_
  rw [hdiv_apply, constant_apply, tS_apply]
  first | done | rfl

/-- A rank-0 array broadcast to a vector, at an index. -/
theorem bc0_apply (x : FVec Ideal S_ .f32) (i : S4096.Idx) : broadcastInDim S4096 ![] bcast_S_S4096 x i = x ix0 :=
  broadcastInDim_apply _ bcast_S_S4096 x i ix0 (fun a => a.elim0)

/-- A rank-0 array broadcast to a matrix, at an index. -/
theorem bc0m_apply (x : FVec Ideal S_ .f32) (i : S4096x1024.Idx) :
    broadcastInDim S4096x1024 ![] bcast_S_S4096x1024 x i = x ix0 :=
  broadcastInDim_apply _ bcast_S_S4096x1024 x i ix0 (fun a => a.elim0)

/-- A vector broadcast along the rows of a matrix (through a one-column matrix), at an index. -/
theorem bcRow_apply (y : FVec Ideal S4096 .f32) (n : Fin 4096) (k : Fin 1024) :
    broadcastInDim S4096x1024 ![0, 1] bcast_S4096x1_S4096x1024_0_1 (broadcastInDim S4096x1 ![0] bcast_S4096_S4096x1_0 y) (ix2 n k)
      = y (ix1 n) :=
  (broadcastInDim_apply _ bcast_S4096x1_S4096x1024_0_1 _ (ix2 n k) (ix2 n 0) (fun a => match a with
      | ⟨0, _⟩ => by show n.val = if (4096 : Nat) = 1 then 0 else n.val; rw [if_neg (by decide)]
      | ⟨1, _⟩ => by show 0 = if (1 : Nat) = 1 then 0 else k.val; rw [if_pos rfl])).trans
    (broadcastInDim_apply _ bcast_S4096_S4096x1_0 y (ix2 n 0) (ix1 n) (fun a => match a with
      | ⟨0, _⟩ => by show n.val = if (4096 : Nat) = 1 then 0 else n.val; rw [if_neg (by decide)]))

/-- The shape relation of the reduce along the columns, in the form that names the rows' indices. -/
theorem red1 : S4096x1024.Reduces [1] S4096 := by decide

/-- Row `n`'s index with column `k` inserted. -/
theorem lift_row (n : Fin 4096) (k : Fin 1024) : red1.lift (ix1 n) k = ix2 n k := by
  funext c
  apply Fin.ext
  match c with
  | ⟨0, _⟩ => rfl
  | ⟨1, _⟩ => rfl

/-- A fold of the float maximum from the word of `-∞` over a whole finite type is the supremum. -/
theorem fold_maximumf_univ {ι : Type} {ft : Fintype ι} (f : ι → EReal) :
    (Finset.univ : Finset ι).fold (FloatOps.maximumf (F := Ideal) (φ := .f32)) (Ideal.ofBits .f32 0xFF800000#32) f = ⨆ i, f i := by
  show (Finset.univ : Finset ι).fold max (lit 0xFF800000#32) f = _
  rw [lit_neg_inf]
  exact fold_max_univ_eq_iSup f

/-- The reduce along the columns of the absolute values, from `-∞`: the largest absolute value of the row. -/
theorem reduce_abs (n : Fin 4096) :
    Host.reduce (FloatOps.maximumf (F := Ideal) (φ := .f32)) (Host.absf W) (constant (F := Ideal) S_ .f32 0xFF800000#32)
      reducesTo_S4096x1024_S4096_d1 h_S_ (ix1 n) = ⨆ k : Fin 1024, max (mat2 W n k) (-(mat2 W n k)) := by
  rw [Host.reduce_eq_fold_single _ _ _ reducesTo_S4096x1024_S4096_d1 red1, constant_apply]
  refine (fold_maximumf_univ _).trans ?_
  show (⨆ k : Fin 1024, Host.absf W (red1.lift (ix1 n) k)) = _
  refine iSup_congr fun k => ?_
  rw [lift_row, habs_apply]
  rfl

theorem tC_apply (n : Fin 4096) : tC W (ix1 n) = chanScale (mat2 W n) := by
  unfold tC chanScale
  rw [hdiv_apply, maximumf_apply, reduce_abs, bc0_apply, bc0_apply, constant_apply, constant_apply]
  first | done | rfl

theorem tQ_apply (n : Fin 4096) (k : Fin 1024) : tQ W (ix2 n k) = chanCode (mat2 W n) k := by
  unfold tQ chanCode
  rw [minimumf_apply, maximumf_apply, hround_apply, hdiv_apply, bc0m_apply, bc0m_apply, bcRow_apply, tC_apply]
  simp only [id_eq, constant_apply]
  first | done | rfl

theorem tP_apply (n : Fin 4096) : tP X W (ix1 n) = actScale (inMax (rows3 X)) * chanScale (mat2 W n) := by
  unfold tP
  rw [mulf_apply, bc0_apply, tS_apply, tC_apply]

theorem tBq_apply (n : Fin 4096) :
    tBq X W B (ix1 n) = biasQ (actScale (inMax (rows3 X)) * chanScale (mat2 W n)) (vec1 B n) := by
  unfold tBq biasQ
  rw [mulf_apply, hround_apply, hdiv_apply, tP_apply]
  first | done | rfl

/-- A vector as a one-row matrix, at an index. -/
theorem row_apply (y : FVec Ideal S4096 .f32) (n : Fin 4096) :
    shapeCast S1x4096 y shapeCasts_S4096_S1x4096 (ix2 0 n) = y (ix1 n) :=
  shapeCast_apply y shapeCasts_S4096_S1x4096 (ix2 0 n) (ix1 n)
    (by rewrite [Shape.rowMajor_val_one, Shape.rowMajor_val_two]; show n.val = 0 * 4096 + n.val; omega)

end Reads
section Buffers
open StableHlo

theorem v0_term (c : Dev nD) : (V7 m ρ c main_v0 : Arr S8192x1024) = tX (aX m c) := by
  show StableHlo.after hostOps0_6 _ (Proc.devRef .tc main_v0) = _
  after_results
  rfl

theorem v5_term (c : Dev nD) : (V7 m ρ c main_v5 : Arr S1x1) = tInv (aX m c) := by
  show StableHlo.after hostOps0_6 _ (Proc.devRef .tc main_v5) = _
  after_results
  rfl

theorem v17_term (c : Dev nD) :
    (V7 m ρ c main_v17 : FVec Ideal S4096x1024 .bf16) = truncf .bf16 (tQ (aW1 m c)) bitsLt_bf16_f32 := by
  show StableHlo.after hostOps0_6 _ (Proc.devRef .tc main_v17) = _
  after_results_simp
  rfl

theorem v23_term (c : Dev nD) :
    (V7 m ρ c main_v23 : Arr S1x4096) = shapeCast S1x4096 (tP (aX m c) (aW1 m c)) shapeCasts_S4096_S1x4096 := by
  show StableHlo.after hostOps0_6 _ (Proc.devRef .tc main_v23) = _
  after_results_simp
  rfl

theorem v24_term (c : Dev nD) :
    (V7 m ρ c main_v24 : Arr S1x4096) = shapeCast S1x4096 (tBq (aX m c) (aW1 m c) (aB1 m c)) shapeCasts_S4096_S1x4096 := by
  show StableHlo.after hostOps0_6 _ (Proc.devRef .tc main_v24) = _
  after_results_simp
  rfl

end Buffers

/-! ## The five operand arrays of the first call -/

section Final

theorem pre0_x (c : Dev nD) (b : Fin 4) (t : Fin 2048) (k : Fin 1024) :
    (V7 m ρ c main_v0 : S8192x1024.Idx → EReal) (ix2 ⟨b.val * 2048 + t.val, by omega⟩ k) = aX m c (ix3 b t k) :=
  (congrFun (v0_term m ρ c) _).trans (tX_apply (aX m c) b t k)

theorem pre0_codes (c : Dev nD) (n : Fin 4096) (k : Fin 1024) :
    (V7 m ρ c main_v17 : S4096x1024.Idx → EReal) (ix2 n k) = chanCode (mat2 (aW1 m c) n) k :=
  (congrFun (v17_term m ρ c) _).trans ((truncf_apply (ψ := .bf16) (tQ (aW1 m c)) bitsLt_bf16_f32 (ix2 n k)).trans (tQ_apply (aW1 m c) n k))

theorem pre0_inv (c : Dev nD) :
    (V7 m ρ c main_v5 : S1x1.Idx → EReal) (ix2 0 0) = Ideal.div (lit 0x3F800000#32) (actScale (inMax (rows3 (aX m c)))) :=
  (congrFun (v5_term m ρ c) _).trans (tInv_apply (aX m c))

theorem pre0_scale (c : Dev nD) (n : Fin 4096) :
    (V7 m ρ c main_v23 : S1x4096.Idx → EReal) (ix2 0 n) = actScale (inMax (rows3 (aX m c))) * chanScale (mat2 (aW1 m c) n) :=
  (congrFun (v23_term m ρ c) _).trans ((row_apply _ n).trans (tP_apply (aX m c) (aW1 m c) n))

theorem pre0_bias (c : Dev nD) (n : Fin 4096) :
    (V7 m ρ c main_v24 : S1x4096.Idx → EReal) (ix2 0 n)
      = biasQ (actScale (inMax (rows3 (aX m c))) * chanScale (mat2 (aW1 m c) n)) (vec1 (aB1 m c) n) :=
  (congrFun (v24_term m ρ c) _).trans ((row_apply _ n).trans (tBq_apply (aX m c) (aW1 m c) (aB1 m c) n))

end Final

end Cert.KernelIdeal.Pre0

end
-- ==== Proof.KernelPre1.lean ====
/-
  What the host operations between the two kernel calls leave in the second call's five operand arrays.

  Between the calls the program computes, from the hidden activations' tile maxima `T` and from the second layer's
  weights `w2` and bias `b2`:
  * the activation scale `s = max (max of all entries of T) ε / 255`, and its reciprocal `1 / s` as a 1 × 1 array;
  * per output channel `n` the weight scale `sₙ = max (maxₖ |w2 n k|) ε / 127`;
  * the weight codes `clip (round (w2 n k / sₙ)) (-128) 127`;
  * the product scale `s · sₙ` as a 1 × 1024 row, and the bias on that grid, `round (b2 n / (s sₙ)) · (s sₙ)`.
  No operation between the calls writes the hidden activations themselves, and none before them writes an argument.
  Each array is first obtained as ONE term of the arrays the first call left, then read at an index: a maximum from
  minus infinity is a supremum, broadcasts and reshapes read one entry of their operand, and at the exact instance
  every arithmetic operation is the extended reals' own.
-/
import proofs.«105257_j19267223290743_2_alg».proof.Proof.Gen.KernelIdeal.Frame
import proofs.«105257_j19267223290743_2_alg».proof.Proof.QuantSpec
import proofs.«105257_j19267223290743_2_alg».proof.Proof.QuantLib
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce
import Idealize.ShloMosaic.Lib.StableHlo.Run

noncomputable section

open Idealize.ShloMosaic Idealize.ShloMosaic.TcCoe Idealize.SL.Sem Idealize.ShloMosaic.ValueIdx
open Cert.QMlp

namespace Cert.KernelIdeal.Pre1
open Cert.KernelIdeal Cert.KernelIdeal.Gen

/-! ## The operations' terms over abstract arrays, read at an index -/

section Terms

/-- A maximum over every entry, started from minus infinity, is the supremum of the entries. -/
theorem reduce_all (X : FVec Ideal S16x8x128 .f32) (i : S_.Idx) :
    Host.reduce FloatOps.maximumf X (constant (F := Ideal) S_ .f32 0xFF800000#32) reducesTo_S16x8x128_S_d0_1_2 h_S_ i
      = ⨆ j, X j := by
  have h0 : (constant (F := Ideal) S_ .f32 0xFF800000#32) (Shape.Idx.first h_S_) = (⊥ : EReal) := lit_neg_inf
  rw [Host.reduce_eq_fold, h0]
  exact fold_max_filter_eq_iSup _ (fun j => funext fun a => a.elim0) X

/-- Row `n` with column `k` put back is the entry `(n, k)`. -/
theorem lift_row (h : S1024x4096.Reduces [(1 : Fin 2)] S1024) (n : Fin 1024) (k : Fin (S1024x4096.size 1)) :
    h.lift (ix1 n) k = ix2 n (⟨k.val, k.isLt⟩ : Fin 4096) := by
  funext c; apply Fin.ext
  fin_cases c <;> rfl

/-- A maximum along a row, started from minus infinity, is the supremum over the row. -/
theorem reduce_row (X : FVec Ideal S1024x4096 .f32) (n : Fin 1024) :
    Host.reduce FloatOps.maximumf X (constant (F := Ideal) S_ .f32 0xFF800000#32) reducesTo_S1024x4096_S1024_d1 h_S_ (ix1 n)
      = ⨆ k : Fin 4096, X (ix2 n k) := by
  have h0 : (constant (F := Ideal) S_ .f32 0xFF800000#32) (Shape.Idx.first h_S_) = (⊥ : EReal) := lit_neg_inf
  have hR : S1024x4096.Reduces [(1 : Fin 2)] S1024 := by decide
  rw [Host.reduce_eq_fold_single FloatOps.maximumf X _ reducesTo_S1024x4096_S1024_d1 hR h_S_ (ix1 n), h0]
  refine (fold_max_univ_eq_iSup _).trans ?_
  exact iSup_congr fun k => congrArg X (lift_row hR n k)

/-- A scalar broadcast along the channels reads the scalar. -/
theorem bcast0_vec (y : FVec Ideal S_ .f32) (n : Fin 1024) :
    broadcastInDim S1024 ![] bcast_S_S1024 y (ix1 n) = y ix0 :=
  broadcastInDim_apply _ bcast_S_S1024 y (ix1 n) ix0 (fun a => a.elim0)

/-- A scalar broadcast over the weight matrix reads the scalar. -/
theorem bcast0_mat (y : FVec Ideal S_ .f32) (n : Fin 1024) (k : Fin 4096) :
    broadcastInDim S1024x4096 ![] bcast_S_S1024x4096 y (ix2 n k) = y ix0 :=
  broadcastInDim_apply _ bcast_S_S1024x4096 y (ix2 n k) ix0 (fun a => a.elim0)

/-- A column broadcast along the rows reads the row's entry of the column. -/
theorem bcast_col (y : FVec Ideal S1024x1 .f32) (n : Fin 1024) (k : Fin 4096) :
    broadcastInDim S1024x4096 ![0, 1] bcast_S1024x1_S1024x4096_0_1 y (ix2 n k) = y (ix2 n 0) :=
  broadcastInDim_apply _ bcast_S1024x1_S1024x4096_0_1 y (ix2 n k) (ix2 n 0) (fun a => match a with
    | ⟨0, _⟩ => by show n.val = if (1024 : Nat) = 1 then 0 else n.val; rw [if_neg (by decide)]
    | ⟨1, _⟩ => by show 0 = if (1 : Nat) = 1 then 0 else k.val; rw [if_pos rfl])

/-- A vector stood up as a column reads the vector. -/
theorem bcast_unit (y : FVec Ideal S1024 .f32) (n : Fin 1024) :
    broadcastInDim S1024x1 ![0] bcast_S1024_S1024x1_0 y (ix2 n 0) = y (ix1 n) :=
  broadcastInDim_apply _ bcast_S1024_S1024x1_0 y (ix2 n 0) (ix1 n) (fun a => match a with
    | ⟨0, _⟩ => by show n.val = if (1024 : Nat) = 1 then 0 else n.val; rw [if_neg (by decide)])

/-- The host's quotient, absolute value and rounding, entry by entry. -/
theorem hdivf_apply {s : Shape} {φ : FTy} (a b : FVec Ideal s φ) (i : s.Idx) : Host.divf a b i = Ideal.div (a i) (b i) := rfl
theorem habsf_apply {s : Shape} {φ : FTy} (a : FVec Ideal s φ) (i : s.Idx) : Host.absf a i = max (a i) (-(a i)) := rfl
theorem hround_apply {s : Shape} {φ : FTy} (a : FVec Ideal s φ) (i : s.Idx) : Host.roundeven a i = rne (a i) := rfl

/-- The activation scale's term: `max (max of all entries) ε / 255`. -/
def sAct (X : FVec Ideal S16x8x128 .f32) : FVec Ideal S_ .f32 :=
  Host.divf (maximumf (Host.reduce FloatOps.maximumf X (constant (F := Ideal) S_ .f32 0xFF800000#32) reducesTo_S16x8x128_S_d0_1_2 h_S_)
      (constant (F := Ideal) S_ .f32 0x322BCC77#32)) (constant (F := Ideal) S_ .f32 0x437F0000#32)

theorem sAct_apply (X : FVec Ideal S16x8x128 .f32) (i : S_.Idx) : sAct X i = actScale (⨆ j, X j) := by
  unfold sAct
  rw [hdivf_apply, maximumf_apply, constant_apply, constant_apply, reduce_all]; rfl

/-- The channel scales' term: `max (maxₖ |w n k|) ε / 127` for each channel `n`. -/
def sChan (W : FVec Ideal S1024x4096 .f32) : FVec Ideal S1024 .f32 :=
  Host.divf (maximumf (Host.reduce FloatOps.maximumf (Host.absf W) (constant (F := Ideal) S_ .f32 0xFF800000#32) reducesTo_S1024x4096_S1024_d1 h_S_)
      (broadcastInDim S1024 ![] bcast_S_S1024 (constant (F := Ideal) S_ .f32 0x322BCC77#32)))
    (broadcastInDim S1024 ![] bcast_S_S1024 (constant (F := Ideal) S_ .f32 0x42FE0000#32))

theorem sChan_apply (W : FVec Ideal S1024x4096 .f32) (n : Fin 1024) : sChan W (ix1 n) = chanScale (mat2 W n) := by
  unfold sChan
  rw [hdivf_apply, maximumf_apply, bcast0_vec, bcast0_vec, constant_apply, constant_apply, reduce_row]
  simp only [habsf_apply]; rfl

/-- The weight codes' term: `clip (round (w / its channel's scale)) (-128) 127`. -/
def codes (W : FVec Ideal S1024x4096 .f32) : FVec Ideal S1024x4096 .bf16 :=
  truncf .bf16 (minimumf (broadcastInDim S1024x4096 ![] bcast_S_S1024x4096 (constant (F := Ideal) S_ .f32 0x42FE0000#32))
      (maximumf (broadcastInDim S1024x4096 ![] bcast_S_S1024x4096 (constant (F := Ideal) S_ .f32 0xC3000000#32))
        (Host.roundeven (Host.divf W
          (broadcastInDim S1024x4096 ![0, 1] bcast_S1024x1_S1024x4096_0_1
            (broadcastInDim S1024x1 ![0] bcast_S1024_S1024x1_0 (sChan W)))))))
    bitsLt_bf16_f32

theorem codes_apply (W : FVec Ideal S1024x4096 .f32) (n : Fin 1024) (k : Fin 4096) :
    codes W (ix2 n k) = chanCode (mat2 W n) k := by
  unfold codes
  rw [truncf_apply, minimumf_apply, maximumf_apply, hround_apply, hdivf_apply, bcast0_mat, bcast0_mat, bcast_col,
    bcast_unit, sChan_apply, constant_apply, constant_apply]; rfl

/-- The product scales' term: the activation scale times each channel's scale. -/
def scl (X : FVec Ideal S16x8x128 .f32) (W : FVec Ideal S1024x4096 .f32) : FVec Ideal S1024 .f32 :=
  mulf (broadcastInDim S1024 ![] bcast_S_S1024 (sAct X)) (sChan W)

theorem scl_apply (X : FVec Ideal S16x8x128 .f32) (W : FVec Ideal S1024x4096 .f32) (n : Fin 1024) :
    scl X W (ix1 n) = actScale (⨆ j, X j) * chanScale (mat2 W n) := by
  unfold scl
  rw [mulf_apply, bcast0_vec, sAct_apply, sChan_apply]

/-- The quantised bias's term: `round (b / product scale) · product scale`. -/
def bq (X : FVec Ideal S16x8x128 .f32) (W : FVec Ideal S1024x4096 .f32) (B : FVec Ideal S1024 .f32) : FVec Ideal S1024 .f32 :=
  mulf (Host.roundeven (Host.divf B (scl X W))) (scl X W)

theorem bq_apply (X : FVec Ideal S16x8x128 .f32) (W : FVec Ideal S1024x4096 .f32) (B : FVec Ideal S1024 .f32) (n : Fin 1024) :
    bq X W B (ix1 n) = biasQ (actScale (⨆ j, X j) * chanScale (mat2 W n)) (vec1 B n) := by
  unfold bq
  rw [mulf_apply, hround_apply, hdivf_apply, scl_apply]; rfl

end Terms

/-! ## The arrays the second call finds, as terms of what the first call left -/

variable (m : (ℓ : Loc nD τ sig) → Buf (Elt Ideal) ℓ) (ρ : Dev nD → PrngReg)

/-- the argument arrays as launched -/
abbrev aX (c : Dev nD) : S4x2048x1024.Idx → EReal := m ((c.tc : Thread nD τ).loc main_arg0)
abbrev aW1 (c : Dev nD) : S4096x1024.Idx → EReal := m ((c.tc : Thread nD τ).loc main_arg1)
abbrev aB1 (c : Dev nD) : S4096.Idx → EReal := m ((c.tc : Thread nD τ).loc main_arg2)
abbrev aW2 (c : Dev nD) : S1024x4096.Idx → EReal := m ((c.tc : Thread nD τ).loc main_arg3)
abbrev aB2 (c : Dev nD) : S1024.Idx → EReal := m ((c.tc : Thread nD τ).loc main_arg4)

/-- the largest entry of the tile maxima the first call left -/
abbrev tileMax (c : Dev nD) : EReal := ⨆ j : S16x8x128.Idx, (V8 m ρ c main_v25_1 : S16x8x128.Idx → EReal) j

/-- The second layer's weights reach the first call's exit as launched: the first call does not own them and no
    operation before it writes an argument. -/
theorem W8_arg3 (c : Dev nD) : W8 m ρ c (Proc.devRef .tc main_arg3) = m ((c : Thread nD τ).loc main_arg3) :=
  (W8_of_ne m ρ c main_arg3 (by decide)).trans (by
    show StableHlo.after hostOps0_6 (W6 m ρ c) (Proc.devRef .tc main_arg3) = _
    after_results)

/-- The same for the second layer's bias. -/
theorem W8_arg4 (c : Dev nD) : W8 m ρ c (Proc.devRef .tc main_arg4) = m ((c : Thread nD τ).loc main_arg4) :=
  (W8_of_ne m ρ c main_arg4 (by decide)).trans (by
    show StableHlo.after hostOps0_6 (W6 m ρ c) (Proc.devRef .tc main_arg4) = _
    after_results)

/-- No operation between the calls writes the hidden activations. -/
theorem pre1_h (c : Dev nD) : V15 m ρ c main_v25_0 = V8 m ρ c main_v25_0 := by
  show StableHlo.after hostOps1_6 (W14 m ρ c) (Proc.devRef .tc main_v25_0) = _
  after_results

open Idealize.ShloMosaic.StableHlo in
theorem pre1_codes (c : Dev nD) (n : Fin 1024) (k : Fin 4096) :
    (V15 m ρ c main_v42 : S1024x4096.Idx → EReal) (ix2 n k) = chanCode (mat2 (aW2 m c) n) k := by
  have e : (V15 m ρ c main_v42 : S1024x4096.Idx → EReal) = codes (W8 m ρ c (Proc.devRef .tc main_arg3)) := by
    show StableHlo.after hostOps1_6 (W14 m ρ c) (Proc.devRef .tc main_v42) = _
    after_results_simp; rfl
  rw [e, W8_arg3, codes_apply]

theorem pre1_inv (c : Dev nD) :
    (V15 m ρ c main_v30 : S1x1.Idx → EReal) (ix2 0 0) = Ideal.div (lit 0x3F800000#32) (actScale (tileMax m ρ c)) := by
  have e : (V15 m ρ c main_v30 : S1x1.Idx → EReal)
      = shapeCast S1x1 (Host.divf (constant (F := Ideal) S_ .f32 0x3F800000#32) (sAct (W8 m ρ c (Proc.devRef .tc main_v25_1))))
          shapeCasts_S_S1x1 := by
    show StableHlo.after hostOps1_6 (W14 m ρ c) (Proc.devRef .tc main_v30) = _
    after_results; rfl
  rw [e, shapeCast_apply _ shapeCasts_S_S1x1 (ix2 0 0) ix0
    (by rw [Shape.rowMajor_val_two]; exact (Shape.rowMajorPi_zero _ _).trans rfl),
    hdivf_apply, constant_apply, sAct_apply]

open Idealize.ShloMosaic.StableHlo in
theorem pre1_scale (c : Dev nD) (n : Fin 1024) :
    (V15 m ρ c main_v48 : S1x1024.Idx → EReal) (ix2 0 n) = actScale (tileMax m ρ c) * chanScale (mat2 (aW2 m c) n) := by
  have e : (V15 m ρ c main_v48 : S1x1024.Idx → EReal)
      = shapeCast S1x1024 (scl (W8 m ρ c (Proc.devRef .tc main_v25_1)) (W8 m ρ c (Proc.devRef .tc main_arg3)))
          shapeCasts_S1024_S1x1024 := by
    show StableHlo.after hostOps1_6 (W14 m ρ c) (Proc.devRef .tc main_v48) = _
    after_results_simp; rfl
  rw [e, shapeCast_a_1a_apply, scl_apply, W8_arg3]

open Idealize.ShloMosaic.StableHlo in
theorem pre1_bias (c : Dev nD) (n : Fin 1024) :
    (V15 m ρ c main_v49 : S1x1024.Idx → EReal) (ix2 0 n)
      = biasQ (actScale (tileMax m ρ c) * chanScale (mat2 (aW2 m c) n)) (vec1 (aB2 m c) n) := by
  have e : (V15 m ρ c main_v49 : S1x1024.Idx → EReal)
      = shapeCast S1x1024 (bq (W8 m ρ c (Proc.devRef .tc main_v25_1)) (W8 m ρ c (Proc.devRef .tc main_arg3))
            (W8 m ρ c (Proc.devRef .tc main_arg4))) shapeCasts_S1024_S1x1024 := by
    show StableHlo.after hostOps1_6 (W14 m ρ c) (Proc.devRef .tc main_v49) = _
    after_results_simp; rfl
  rw [e, shapeCast_a_1a_apply, bq_apply, W8_arg3, W8_arg4]

end Cert.KernelIdeal.Pre1

end
-- ==== Proof.KernelValue.lean ====
/-
  The idealised kernel's result array, entry by entry, as a function of the five argument arrays.

  The program is: host operations that compute the input's scale, the first weight matrix's codes and per-channel
  scales and the quantised first bias; the first call, which writes the hidden tensor (rows of 8192, 4096 columns) and,
  per block of 512 rows, that block's maximum; host operations that take the largest block maximum as the hidden
  tensor's maximum and prepare the second layer's operands from it; the second call; a reshape of its [8192, 1024]
  output to [4, 2048, 1024].  Reading these one after another, entry (b, t, e) of the result is the two-layer network
  `outK` at row (b, t), column e: row b·2048 + t of each call's output is the layer applied to row (b, t), and the
  largest block maximum is the supremum of the hidden tensor because the blocks cover all rows.
-/
import proofs.«105257_j19267223290743_2_alg».proof.Proof.Gen.KernelIdeal.Frame
import proofs.«105257_j19267223290743_2_alg».proof.Proof.QuantSpec
import proofs.«105257_j19267223290743_2_alg».proof.Proof.QuantLib
import proofs.«105257_j19267223290743_2_alg».proof.Proof.KernelCall0Hid
import proofs.«105257_j19267223290743_2_alg».proof.Proof.KernelCall0Max
import proofs.«105257_j19267223290743_2_alg».proof.Proof.KernelCall1
import proofs.«105257_j19267223290743_2_alg».proof.Proof.KernelPre0
import proofs.«105257_j19267223290743_2_alg».proof.Proof.KernelPre1
import Idealize.ShloMosaic.Lib.ValueIdx
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Cert.QMlp

namespace Cert.KernelIdeal.KVal
open Cert.KernelIdeal Cert.KernelIdeal.Gen
variable (m : (ℓ : Loc nD τ sig) → Buf (Elt Ideal) ℓ) (ρ : Dev nD → PrngReg)

/-- The argument arrays as launched. -/
abbrev aX (c : Dev nD) : S4x2048x1024.Idx → EReal := m ((c.tc : Thread nD τ).loc main_arg0)
abbrev aW1 (c : Dev nD) : S4096x1024.Idx → EReal := m ((c.tc : Thread nD τ).loc main_arg1)
abbrev aB1 (c : Dev nD) : S4096.Idx → EReal := m ((c.tc : Thread nD τ).loc main_arg2)
abbrev aW2 (c : Dev nD) : S1024x4096.Idx → EReal := m ((c.tc : Thread nD τ).loc main_arg3)
abbrev aB2 (c : Dev nD) : S1024.Idx → EReal := m ((c.tc : Thread nD τ).loc main_arg4)

/-- The first call's output array, rows 8192, columns 4096. -/
abbrev hidArr (c : Dev nD) : S8192x4096.Idx → EReal := (dat0 (F := Ideal) (V7 m ρ) c).arrAt 5 cfg0.N

/-- `callRow` respects equality of each operand. -/
theorem callRow_congr {K N : Type} [Fintype K] {a a' : K → EReal} {cw cw' : N → K → EReal} {inv inv' : EReal}
    {scale scale' bq bq' : N → EReal} (ha : a = a') (hc : cw = cw') (hi : inv = inv') (hs : scale = scale')
    (hb : bq = bq') (n : N) : callRow a cw inv scale bq n = callRow a' cw' inv' scale' bq' n := by
  subst ha hc hi hs hb; rfl

/-- The last host operation is a reshape: the result array is the second call's output re-read row-major. -/
theorem result_is_reshape (c : Dev nD) :
    (W17 m ρ c (Proc.devRef .tc main_v51) : S4x2048x1024.Idx → EReal)
      = shapeCast S4x2048x1024 (W16 m ρ c (Proc.devRef .tc main_v50) : S8192x1024.Idx → EReal) shapeCasts_S8192x1024_S4x2048x1024 := by
  show StableHlo.after hostOps2 _ (Proc.devRef .tc main_v51) = _
  after_results
  rfl

theorem out_is_call1 (c : Dev nD) :
    (W16 m ρ c (Proc.devRef .tc main_v50) : S8192x1024.Idx → EReal) = ((dat1 (F := Ideal) (V15 m ρ) c).arrAt 5 cfg1.N : S8192x1024.Idx → EReal) :=
  W16_arr m ρ c 5

/-- Entry (b, t, e) of the result is entry (b·2048 + t, e) of the second call's output. -/
theorem result_at (c : Dev nD) (b : Fin 4) (t : Fin 2048) (e : Fin 1024) :
    (W17 m ρ c (Proc.devRef .tc main_v51) : S4x2048x1024.Idx → EReal) (ix3 b t e)
      = ((dat1 (F := Ideal) (V15 m ρ) c).arrAt 5 cfg1.N : S8192x1024.Idx → EReal) (ix2 ⟨b.val * 2048 + t.val, by omega⟩ e) := by
  rw [result_is_reshape, out_is_call1]
  refine shapeCast_apply _ _ _ _ ?_
  show (S8192x1024.rowMajor _).val = (S4x2048x1024.rowMajor _).val
  rw [Shape.rowMajor_val_two, Shape.rowMajor_val_three]
  rfl

/-- Row b·2048 + t of the first call's output is the hidden row of input row (b, t). -/
theorem hidden_at (c : Dev nD) (b : Fin 4) (t : Fin 2048) (f : Fin 4096) :
    hidArr m ρ c (ix2 ⟨b.val * 2048 + t.val, by omega⟩ f)
      = hidK (inMax (rows3 (aX m c))) (rows3 (aX m c) (b, t)) (mat2 (aW1 m c)) (vec1 (aB1 m c)) f := by
  unfold hidArr
  rw [Call0H.region0_hidden]
  refine congrArg (fun z => max z (lit 0x00000000#32)) ?_
  exact callRow_congr (funext fun k => Pre0.pre0_x m ρ c b t k)
    (funext fun n => funext fun k => Pre0.pre0_codes m ρ c n k) (Pre0.pre0_inv m ρ c)
    (funext fun n => Pre0.pre0_scale m ρ c n) (funext fun n => Pre0.pre0_bias m ρ c n) f

/-- The same at any row. -/
theorem hidden_row (c : Dev nD) (r : Fin 8192) (f : Fin 4096) :
    hidArr m ρ c (ix2 r f)
      = hidK (inMax (rows3 (aX m c))) (rows3 (aX m c) (⟨r.val / 2048, by omega⟩, ⟨r.val % 2048, by omega⟩))
          (mat2 (aW1 m c)) (vec1 (aB1 m c)) f := by
  rw [← hidden_at]
  exact congrArg (fun r' => hidArr m ρ c (ix2 r' f)) (Fin.ext (by simp; omega))

/-- The largest tile maximum is the largest entry of the hidden tensor. -/
theorem tileMax_eq (c : Dev nD) :
    ((⨆ j : S16x8x128.Idx, (V8 m ρ c main_v25_1 : S16x8x128.Idx → EReal) j : EReal))
      = hidMaxK (rows3 (aX m c)) (mat2 (aW1 m c)) (vec1 (aB1 m c)) := by
  have h6 : (V8 m ρ c main_v25_1 : S16x8x128.Idx → EReal)
      = ((dat0 (F := Ideal) (V7 m ρ) c).arrAt 6 cfg0.N : S16x8x128.Idx → EReal) := W8_arr m ρ c 6
  unfold hidMaxK
  apply le_antisymm
  · refine iSup_le fun j => ?_
    obtain ⟨t', a', l', rfl⟩ : ∃ (t' : Fin 16) (a' : Fin 8) (l' : Fin 128), j = ix3 t' a' l' := ⟨j 0, j 1, j 2, eq_ix3 j⟩
    rw [h6, Call0M.region0_tilemax]
    refine iSup_le fun p => iSup_le fun f => ?_
    have := hidden_row m ρ c ⟨t'.val * 512 + p.val, by omega⟩ f
    unfold hidArr at this
    rw [this]
    exact le_iSup₂_of_le (f := fun r f => hidK (inMax (rows3 (aX m c))) (rows3 (aX m c) r) (mat2 (aW1 m c)) (vec1 (aB1 m c)) f) _ f le_rfl
  · refine iSup_le fun r => iSup_le fun f => ?_
    obtain ⟨b, t⟩ := r
    rw [← hidden_at m ρ c b t f]
    refine le_iSup_of_le (ix3 (⟨(b.val * 2048 + t.val) / 512, by omega⟩ : Fin 16) (0 : Fin 8) (0 : Fin 128)) ?_
    rw [h6, Call0M.region0_tilemax]
    refine le_iSup₂_of_le (⟨(b.val * 2048 + t.val) % 512, by omega⟩ : Fin 512) f (le_of_eq ?_)
    exact congrArg (fun r' => hidArr m ρ c (ix2 r' f)) (Fin.ext (by simp; omega))

/-- The kernel's result array, entry by entry, is the two-layer network in the codes-first arrangement. -/
theorem kernel_value (c : Dev nD) (b : Fin 4) (t : Fin 2048) (e : Fin 1024) :
    (W17 m ρ c (Proc.devRef .tc main_v51) : S4x2048x1024.Idx → EReal) (ix3 b t e)
      = outK (rows3 (aX m c)) (mat2 (aW1 m c)) (vec1 (aB1 m c)) (mat2 (aW2 m c)) (vec1 (aB2 m c)) (b, t) e := by
  rw [result_at, Call1.region1_out]
  have hmax := tileMax_eq m ρ c
  have hrow : (fun k : Fin 4096 => (V15 m ρ c main_v25_0 : S8192x4096.Idx → EReal) (ix2 ⟨b.val * 2048 + t.val, by omega⟩ k))
      = hidK (inMax (rows3 (aX m c))) (rows3 (aX m c) (b, t)) (mat2 (aW1 m c)) (vec1 (aB1 m c)) := by
    funext k
    rw [Pre1.pre1_h]
    exact (congrFun (W8_arr m ρ c 5) _).trans (hidden_at m ρ c b t k)
  refine (callRow_congr hrow (funext fun n => funext fun k => Pre1.pre1_codes m ρ c n k) (Pre1.pre1_inv m ρ c)
    (funext fun n => Pre1.pre1_scale m ρ c n) (funext fun n => Pre1.pre1_bias m ρ c n) e).trans ?_
  rw [show Pre1.tileMax m ρ c = _ from hmax]
  rfl

end Cert.KernelIdeal.KVal
end
-- ==== Proof.RefValue.lean ====
/-
  The reference program, read at an index, is the two-layer fake-quantised network of the specification.

  The reference computes, operation by operation: the largest entry of the input tensor and from it the activation
  scale; every input entry replaced by itself plus (code times scale minus itself); for each output channel of the
  first weight matrix the largest absolute value of its row, the channel scale, and every weight replaced likewise;
  the bias replaced likewise on the grid of the product of the two scales; the contraction of the replaced
  activations with the replaced weights plus the replaced bias; the maximum with zero; and then the same layer once
  more over the hidden tensor with the second weight matrix and bias.  Each lemma below reads one of these
  intermediate tensors at an index written by its coordinates and identifies it with the matching piece of the
  specification: `inMax`, `actScale`, `codeDiv`, `chanScale`, `chanCode`, `biasQ`, `rowR`, `hidR`, `hidMaxR` and
  finally `outR`.  The four maxima are folds of `max` from minus infinity over a finite index set, hence suprema;
  the supremum over all indices of a rank-3 tensor is the iterated supremum over rows and columns.
-/
import proofs.«105257_j19267223290743_2_alg».proof.Proof.Gen.ReferenceIdeal.Read
import proofs.«105257_j19267223290743_2_alg».proof.Proof.QuantSpec
import proofs.«105257_j19267223290743_2_alg».proof.Proof.QuantLib
import Idealize.ShloMosaic.Lib.ValueIdx
import Idealize.ShloMosaic.PureOps.Ideal.Laws
import Idealize.ShloMosaic.PureOps.Reduce

noncomputable section

open Idealize.ShloMosaic Idealize.ShloMosaic.TcCoe Idealize.SL.Sem Idealize.ShloMosaic.ValueIdx
open Cert.QMlp

namespace Cert.ReferenceIdeal.RefVal
open Cert.ReferenceIdeal Cert.ReferenceIdeal.Gen Cert.ReferenceIdeal.Read

/-- The supremum over every index of a rank-3 tensor is the supremum over its rows of the supremum along each row. -/
theorem iSup_idx3 {n0 n1 n2 : Nat} (g : (⟨3, ![n0, n1, n2]⟩ : Shape).Idx → EReal) :
    (⨆ i, g i) = ⨆ (p : Fin n0 × Fin n1), ⨆ (d : Fin n2), g (ix3 p.1 p.2 d) := by
  apply le_antisymm
  · refine iSup_le fun i => ?_
    rw [eq_ix3 i]
    exact le_iSup_of_le (i 0, i 1) (le_iSup (fun d => g (ix3 (i 0) (i 1) d)) (i 2))
  · exact iSup_le fun p => iSup_le fun d => le_iSup g (ix3 p.1 p.2 d)

/-- The largest entry of the input tensor. -/
theorem v0_eq (X : S4x2048x1024.Idx → EReal) (i : S_.Idx) :
    val_main_v0 (F := Ideal) X i = inMax (rows3 X) := by
  unfold val_main_v0
  rw [Host.reduce_eq_fold]
  show (Finset.univ.filter _).fold max (lit 0xFF800000#32) X = _
  rw [lit_neg_inf, fold_max_filter_eq_iSup _ (fun j => funext fun a => a.elim0), iSup_idx3]
  rfl

/-- The activation scale of the input tensor. -/
theorem v2_eq (X : S4x2048x1024.Idx → EReal) (i : S_.Idx) :
    val_main_v2 (F := Ideal) X i = actScale (inMax (rows3 X)) := by
  rw [val_main_v2_apply, val_main_v1_apply, v0_eq]
  rfl

/-- An input entry with its code scaled back. -/
theorem v10_eq (X : S4x2048x1024.Idx → EReal) (i : S4x2048x1024.Idx) :
    val_main_v10 (F := Ideal) X i
      = X i + (codeDiv (actScale (inMax (rows3 X))) (X i) * actScale (inMax (rows3 X)) - X i) := by
  rw [val_main_v10_apply, val_main_v9_apply, val_main_v8_apply, val_main_v6_apply, val_main_v7_apply,
    val_main_call1_v4_apply, val_main_call1_v2_apply, val_main_call1_v1_apply, val_main_v5_apply, val_main_v4_apply,
    val_main_v3_apply, v2_eq]
  rfl

/-- The largest absolute value along a row of the first weight matrix. -/
theorem v12_eq (W1 : S4096x1024.Idx → EReal) (f : Fin 4096) :
    val_main_v12 (F := Ideal) W1 (ix1 f) = ⨆ k : Fin 1024, max (W1 (ix2 f k)) (-(W1 (ix2 f k))) := by
  have hR : S4096x1024.Reduces [1] S4096 := by decide
  unfold val_main_v12
  rw [Host.reduce_eq_fold_single _ _ _ _ hR]
  show (Finset.univ : Finset (Fin 1024)).fold max (lit 0xFF800000#32)
      (fun k : Fin 1024 => (val_main_v11 (F := Ideal) W1 (hR.lift (ix1 f) k) : EReal)) = _
  rw [lit_neg_inf, fold_max_univ_eq_iSup]
  refine iSup_congr fun k => ?_
  have e : hR.lift (ix1 f) k = ix2 f k :=
    funext fun a => Fin.ext (by match a with | ⟨0, _⟩ => rfl | ⟨1, _⟩ => rfl)
  rw [e]
  rfl

/-- The scale of one output channel of the first weight matrix. -/
theorem v17_eq (W1 : S4096x1024.Idx → EReal) (f : Fin 4096) :
    val_main_v17 (F := Ideal) W1 (ix2 f 0) = chanScale (mat2 W1 f) := by
  have e : idx_main_v13 (ix2 f (0 : Fin 1)) = ix1 f :=
    funext fun a => Fin.ext (by match a with | ⟨0, _⟩ => rfl)
  rw [val_main_v17_apply, val_main_v15_apply, val_main_v13_apply, e, v12_eq]
  rfl

/-- A weight of the first matrix with its code scaled back. -/
theorem v25_eq (W1 : S4096x1024.Idx → EReal) (f : Fin 4096) (k : Fin 1024) :
    val_main_v25 (F := Ideal) W1 (ix2 f k)
      = mat2 W1 f k + (chanCode (mat2 W1 f) k * chanScale (mat2 W1 f) - mat2 W1 f k) := by
  have e18 : idx_main_v18 (ix2 f k) = ix2 f 0 :=
    funext fun a => Fin.ext (by match a with | ⟨0, _⟩ => rfl | ⟨1, _⟩ => rfl)
  have e22 : idx_main_v22 (ix2 f k) = ix2 f 0 :=
    funext fun a => Fin.ext (by match a with | ⟨0, _⟩ => rfl | ⟨1, _⟩ => rfl)
  rw [val_main_v25_apply, val_main_v24_apply, val_main_v23_apply, val_main_v21_apply, val_main_v22_apply,
    val_main_call3_v4_apply, val_main_call3_v2_apply, val_main_call3_v1_apply, val_main_v20_apply, val_main_v19_apply,
    val_main_v18_apply, e18, e22, v17_eq]
  rfl

/-- The product of the activation scale and a channel scale of the first layer. -/
theorem v28_eq (X : S4x2048x1024.Idx → EReal) (W1 : S4096x1024.Idx → EReal) (f : Fin 4096) :
    val_main_v28 (F := Ideal) X W1 (ix1 f) = actScale (inMax (rows3 X)) * chanScale (mat2 W1 f) := by
  have e : idx_main_v26 (ix1 f) = ix2 f 0 :=
    funext fun a => Fin.ext (by match a with | ⟨0, _⟩ => exact Nat.div_one _ | ⟨1, _⟩ => rfl)
  rw [val_main_v28_apply, val_main_v27_apply, val_main_v26_apply, e, v2_eq, v17_eq]
  rfl

/-- A bias entry of the first layer with its rounding onto the product scale's grid. -/
theorem v33_eq (X : S4x2048x1024.Idx → EReal) (W1 : S4096x1024.Idx → EReal) (B1 : S4096.Idx → EReal) (f : Fin 4096) :
    val_main_v33 (F := Ideal) X W1 B1 (ix1 f)
      = vec1 B1 f + (biasQ (actScale (inMax (rows3 X)) * chanScale (mat2 W1 f)) (vec1 B1 f) - vec1 B1 f) := by
  rw [val_main_v33_apply, val_main_v32_apply, val_main_v31_apply, val_main_v30_apply, val_main_v29_apply, v28_eq]
  rfl

/-- One entry of the first layer before the maximum with zero. -/
theorem v37_eq (X : S4x2048x1024.Idx → EReal) (W1 : S4096x1024.Idx → EReal) (B1 : S4096.Idx → EReal)
    (b : Fin 4) (t : Fin 2048) (f : Fin 4096) :
    val_main_v37 (F := Ideal) X W1 B1 (ix3 b t f)
      = rowR (inMax (rows3 X)) (rows3 X (b, t)) (mat2 W1) (vec1 B1) f := by
  have eb : idx_main_v35 (idx_main_v36 (ix3 b t f)) = ix1 f :=
    funext fun a => Fin.ext (by match a with | ⟨0, _⟩ => rfl)
  have hk : ∀ k : Fin 1024,
      val_main_v10 (F := Ideal) X (lidx_main_v34 (ix3 b t f) k)
          * val_main_v25 (F := Ideal) W1 (ridx_main_v34 (ix3 b t f) k)
        = (rows3 X (b, t) k + (codeDiv (actScale (inMax (rows3 X))) (rows3 X (b, t) k)
              * actScale (inMax (rows3 X)) - rows3 X (b, t) k))
          * (mat2 W1 f k + (chanCode (mat2 W1 f) k * chanScale (mat2 W1 f) - mat2 W1 f k)) := fun k => by
    have el : lidx_main_v34 (ix3 b t f) k = ix3 b t k :=
      funext fun a => Fin.ext (by match a with | ⟨0, _⟩ => rfl | ⟨1, _⟩ => rfl | ⟨2, _⟩ => rfl)
    have er : ridx_main_v34 (ix3 b t f) k = ix2 f k :=
      funext fun a => Fin.ext (by match a with | ⟨0, _⟩ => rfl | ⟨1, _⟩ => rfl)
    rw [el, er, v10_eq, v25_eq]
    rfl
  rw [val_main_v37_apply, val_main_v34_apply, val_main_v36_apply, val_main_v35_apply, eb, v33_eq,
    Finset.sum_congr rfl fun k _ => hk k]
  rfl

/-- One entry of the hidden tensor. -/
theorem v38_eq (X : S4x2048x1024.Idx → EReal) (W1 : S4096x1024.Idx → EReal) (B1 : S4096.Idx → EReal)
    (b : Fin 4) (t : Fin 2048) (f : Fin 4096) :
    val_main_v38 (F := Ideal) X W1 B1 (ix3 b t f)
      = hidR (inMax (rows3 X)) (rows3 X (b, t)) (mat2 W1) (vec1 B1) f := by
  rw [val_main_v38_apply, v37_eq, val_main_call5_v0_apply]
  rfl

/-- The largest entry of the hidden tensor. -/
theorem v39_eq (X : S4x2048x1024.Idx → EReal) (W1 : S4096x1024.Idx → EReal) (B1 : S4096.Idx → EReal) (i : S_.Idx) :
    val_main_v39 (F := Ideal) X W1 B1 i = hidMaxR (rows3 X) (mat2 W1) (vec1 B1) := by
  unfold val_main_v39
  rw [Host.reduce_eq_fold]
  show (Finset.univ.filter _).fold max (lit 0xFF800000#32) (val_main_v38 (F := Ideal) X W1 B1) = _
  rw [lit_neg_inf, fold_max_filter_eq_iSup _ (fun j => funext fun a => a.elim0), iSup_idx3]
  unfold hidMaxR
  exact iSup_congr fun p => iSup_congr fun f => v38_eq X W1 B1 p.1 p.2 f

/-- The activation scale of the hidden tensor. -/
theorem v41_eq (X : S4x2048x1024.Idx → EReal) (W1 : S4096x1024.Idx → EReal) (B1 : S4096.Idx → EReal) (i : S_.Idx) :
    val_main_v41 (F := Ideal) X W1 B1 i = actScale (hidMaxR (rows3 X) (mat2 W1) (vec1 B1)) := by
  rw [val_main_v41_apply, val_main_v40_apply, v39_eq]
  rfl

/-- A hidden entry with its code scaled back. -/
theorem v49_eq (X : S4x2048x1024.Idx → EReal) (W1 : S4096x1024.Idx → EReal) (B1 : S4096.Idx → EReal)
    (b : Fin 4) (t : Fin 2048) (f : Fin 4096) :
    val_main_v49 (F := Ideal) X W1 B1 (ix3 b t f)
      = hidR (inMax (rows3 X)) (rows3 X (b, t)) (mat2 W1) (vec1 B1) f
        + (codeDiv (actScale (hidMaxR (rows3 X) (mat2 W1) (vec1 B1)))
              (hidR (inMax (rows3 X)) (rows3 X (b, t)) (mat2 W1) (vec1 B1) f)
            * actScale (hidMaxR (rows3 X) (mat2 W1) (vec1 B1))
          - hidR (inMax (rows3 X)) (rows3 X (b, t)) (mat2 W1) (vec1 B1) f) := by
  rw [val_main_v49_apply, val_main_v48_apply, val_main_v47_apply, val_main_v45_apply, val_main_v46_apply,
    val_main_call7_v4_apply, val_main_call7_v2_apply, val_main_call7_v1_apply, val_main_v44_apply, val_main_v43_apply,
    val_main_v42_apply, v41_eq, v38_eq]
  rfl

/-- The largest absolute value along a row of the second weight matrix. -/
theorem v51_eq (W2 : S1024x4096.Idx → EReal) (e : Fin 1024) :
    val_main_v51 (F := Ideal) W2 (ix1 e) = ⨆ k : Fin 4096, max (W2 (ix2 e k)) (-(W2 (ix2 e k))) := by
  have hR : S1024x4096.Reduces [1] S1024 := by decide
  unfold val_main_v51
  rw [Host.reduce_eq_fold_single _ _ _ _ hR]
  show (Finset.univ : Finset (Fin 4096)).fold max (lit 0xFF800000#32)
      (fun k : Fin 4096 => (val_main_v50 (F := Ideal) W2 (hR.lift (ix1 e) k) : EReal)) = _
  rw [lit_neg_inf, fold_max_univ_eq_iSup]
  refine iSup_congr fun k => ?_
  have h : hR.lift (ix1 e) k = ix2 e k :=
    funext fun a => Fin.ext (by match a with | ⟨0, _⟩ => rfl | ⟨1, _⟩ => rfl)
  rw [h]
  rfl

/-- The scale of one output channel of the second weight matrix. -/
theorem v56_eq (W2 : S1024x4096.Idx → EReal) (e : Fin 1024) :
    val_main_v56 (F := Ideal) W2 (ix2 e 0) = chanScale (mat2 W2 e) := by
  have h : idx_main_v52 (ix2 e (0 : Fin 1)) = ix1 e :=
    funext fun a => Fin.ext (by match a with | ⟨0, _⟩ => rfl)
  rw [val_main_v56_apply, val_main_v54_apply, val_main_v52_apply, h, v51_eq]
  rfl

/-- A weight of the second matrix with its code scaled back. -/
theorem v64_eq (W2 : S1024x4096.Idx → EReal) (e : Fin 1024) (k : Fin 4096) :
    val_main_v64 (F := Ideal) W2 (ix2 e k)
      = mat2 W2 e k + (chanCode (mat2 W2 e) k * chanScale (mat2 W2 e) - mat2 W2 e k) := by
  have e57 : idx_main_v57 (ix2 e k) = ix2 e 0 :=
    funext fun a => Fin.ext (by match a with | ⟨0, _⟩ => rfl | ⟨1, _⟩ => rfl)
  have e61 : idx_main_v61 (ix2 e k) = ix2 e 0 :=
    funext fun a => Fin.ext (by match a with | ⟨0, _⟩ => rfl | ⟨1, _⟩ => rfl)
  rw [val_main_v64_apply, val_main_v63_apply, val_main_v62_apply, val_main_v60_apply, val_main_v61_apply,
    val_main_call9_v4_apply, val_main_call9_v2_apply, val_main_call9_v1_apply, val_main_v59_apply, val_main_v58_apply,
    val_main_v57_apply, e57, e61, v56_eq]
  rfl

/-- The product of the hidden tensor's activation scale and a channel scale of the second layer. -/
theorem v67_eq (X : S4x2048x1024.Idx → EReal) (W1 : S4096x1024.Idx → EReal) (B1 : S4096.Idx → EReal)
    (W2 : S1024x4096.Idx → EReal) (e : Fin 1024) :
    val_main_v67 (F := Ideal) X W1 B1 W2 (ix1 e)
      = actScale (hidMaxR (rows3 X) (mat2 W1) (vec1 B1)) * chanScale (mat2 W2 e) := by
  have h : idx_main_v65 (ix1 e) = ix2 e 0 :=
    funext fun a => Fin.ext (by match a with | ⟨0, _⟩ => exact Nat.div_one _ | ⟨1, _⟩ => rfl)
  rw [val_main_v67_apply, val_main_v66_apply, val_main_v65_apply, h, v41_eq, v56_eq]
  rfl

/-- A bias entry of the second layer with its rounding onto the product scale's grid. -/
theorem v72_eq (X : S4x2048x1024.Idx → EReal) (W1 : S4096x1024.Idx → EReal) (B1 : S4096.Idx → EReal)
    (W2 : S1024x4096.Idx → EReal) (B2 : S1024.Idx → EReal) (e : Fin 1024) :
    val_main_v72 (F := Ideal) X W1 B1 W2 B2 (ix1 e)
      = vec1 B2 e + (biasQ (actScale (hidMaxR (rows3 X) (mat2 W1) (vec1 B1)) * chanScale (mat2 W2 e)) (vec1 B2 e)
          - vec1 B2 e) := by
  rw [val_main_v72_apply, val_main_v71_apply, val_main_v70_apply, val_main_v69_apply, val_main_v68_apply, v67_eq]
  rfl

/-- The reference's result at an index is the specification's two-layer network, every code scaled back first. -/
theorem ref_value (X : S4x2048x1024.Idx → EReal) (W1 : S4096x1024.Idx → EReal) (B1 : S4096.Idx → EReal)
    (W2 : S1024x4096.Idx → EReal) (B2 : S1024.Idx → EReal) (b : Fin 4) (t : Fin 2048) (e : Fin 1024) :
    Cert.ReferenceIdeal.Read.val_main_v76 (F := Ideal) X W1 B1 W2 B2 (ix3 b t e)
      = outR (rows3 X) (mat2 W1) (vec1 B1) (mat2 W2) (vec1 B2) (b, t) e := by
  have eb : idx_main_v74 (idx_main_v75 (ix3 b t e)) = ix1 e :=
    funext fun a => Fin.ext (by match a with | ⟨0, _⟩ => rfl)
  have hk : ∀ k : Fin 4096,
      val_main_v49 (F := Ideal) X W1 B1 (lidx_main_v73 (ix3 b t e) k)
          * val_main_v64 (F := Ideal) W2 (ridx_main_v73 (ix3 b t e) k)
        = (hidR (inMax (rows3 X)) (rows3 X (b, t)) (mat2 W1) (vec1 B1) k
            + (codeDiv (actScale (hidMaxR (rows3 X) (mat2 W1) (vec1 B1)))
                  (hidR (inMax (rows3 X)) (rows3 X (b, t)) (mat2 W1) (vec1 B1) k)
                * actScale (hidMaxR (rows3 X) (mat2 W1) (vec1 B1))
              - hidR (inMax (rows3 X)) (rows3 X (b, t)) (mat2 W1) (vec1 B1) k))
          * (mat2 W2 e k + (chanCode (mat2 W2 e) k * chanScale (mat2 W2 e) - mat2 W2 e k)) := fun k => by
    have el : lidx_main_v73 (ix3 b t e) k = ix3 b t k :=
      funext fun a => Fin.ext (by match a with | ⟨0, _⟩ => rfl | ⟨1, _⟩ => rfl | ⟨2, _⟩ => rfl)
    have er : ridx_main_v73 (ix3 b t e) k = ix2 e k :=
      funext fun a => Fin.ext (by match a with | ⟨0, _⟩ => rfl | ⟨1, _⟩ => rfl)
    rw [el, er, v49_eq, v64_eq]
  rw [val_main_v76_apply, val_main_v73_apply, val_main_v75_apply, val_main_v74_apply, eb, v72_eq,
    Finset.sum_congr rfl fun k _ => hk k]
  rfl

end Cert.ReferenceIdeal.RefVal
end
-- ==== Proof.lean ====
/-
  The certificate of a two-layer fake-quantised network: a kernel of two calls (each a quantised linear layer; the first
  followed by max · 0 and by the maximum of every block of rows it writes) against a reference that quantises, scales
  every code back and multiplies.

  The three frame claims are the generated frames (the reference's is its generated run with the result dropped); no
  operation was rewritten by the idealisation, so nothing is to be preserved.  For the equivalence: the kernel's result
  array is, entry by entry, the network in the codes-first arrangement (`KVal.kernel_value`), the reference's is the
  network with every code scaled back first (`RefVal.ref_value`), and on real data — which the precondition gives
  (`Fin.real_of_pre`) — the two arrangements agree by distributivity of a finite sum (`Math.out_eq`).
-/
import proofs.«105257_j19267223290743_2_alg».proof.Defs
import proofs.«105257_j19267223290743_2_alg».proof.Proof.Gen.Kernel
import proofs.«105257_j19267223290743_2_alg».proof.Proof.Gen.Kernel.Skeleton
import proofs.«105257_j19267223290743_2_alg».proof.Proof.Gen.Kernel.Launch
import proofs.«105257_j19267223290743_2_alg».proof.Proof.Gen.Kernel.Points
import proofs.«105257_j19267223290743_2_alg».proof.Proof.Gen.Kernel.Frame
import proofs.«105257_j19267223290743_2_alg».proof.Proof.Gen.KernelIdeal
import proofs.«105257_j19267223290743_2_alg».proof.Proof.Gen.KernelIdeal.Skeleton
import proofs.«105257_j19267223290743_2_alg».proof.Proof.Gen.KernelIdeal.Launch
import proofs.«105257_j19267223290743_2_alg».proof.Proof.Gen.KernelIdeal.Points
import proofs.«105257_j19267223290743_2_alg».proof.Proof.Gen.KernelIdeal.Frame
import proofs.«105257_j19267223290743_2_alg».proof.Proof.Gen.ReferenceIdeal
import proofs.«105257_j19267223290743_2_alg».proof.Proof.Gen.Pre_finite_inputs
import proofs.«105257_j19267223290743_2_alg».proof.Proof.Gen.ReferenceIdeal.Run
import proofs.«105257_j19267223290743_2_alg».proof.Proof.Gen.ReferenceIdeal.Read
import proofs.«105257_j19267223290743_2_alg».proof.Proof.QuantSpec
import proofs.«105257_j19267223290743_2_alg».proof.Proof.QuantMath
import proofs.«105257_j19267223290743_2_alg».proof.Proof.FiniteInputs
import proofs.«105257_j19267223290743_2_alg».proof.Proof.KernelRun
import proofs.«105257_j19267223290743_2_alg».proof.Proof.KernelValue
import proofs.«105257_j19267223290743_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.QMlp

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two idealised programs end with equal results: both compute the two-layer network, in two arrangements that
    agree on real data. -/
theorem algebraic : Cert.algebraic_KernelIdeal_ReferenceIdeal := by
  intro m ρ m' ρ' hpre hagree
  refine ⟨fun c => Cert.KernelIdeal.Gen.W17 m ρ c (Proc.devRef .tc Cert.KernelIdeal.main_v51),
    Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2.1, (hagree c).2.2.1, (hagree c).2.2.2.1,
    (hagree c).2.2.2.2]
  obtain ⟨h0, h1, h2, h3, h4⟩ := Cert.Fin.real_of_pre m hpre c
  funext i
  obtain ⟨b, t, e, rfl⟩ : ∃ (b : Fin 4) (t : Fin 2048) (e : Fin 1024), i = ix3 b t e := ⟨i 0, i 1, i 2, eq_ix3 i⟩
  rw [Cert.ReferenceIdeal.RefVal.ref_value]
  refine Eq.trans ?_ (Cert.KernelIdeal.KVal.kernel_value m ρ c b t e).symm
  exact (Cert.QMlp.Math.out_eq _ _ _ _ _ (fun r d => h0 _) (fun f d => h1 _) (fun f => h2 _) (fun e f => h3 _)
    (fun e => h4 _) (b, t) e).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
